-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x3x256x256 : Shape := ⟨4, ![128, 3, 256, 256]⟩
abbrev S16x192 : Shape := ⟨2, ![16, 192]⟩
abbrev S16 : Shape := ⟨1, ![16]⟩
abbrev S192x16 : Shape := ⟨2, ![192, 16]⟩
abbrev S192 : Shape := ⟨1, ![192]⟩
abbrev S_ : Shape := ⟨0, ![]⟩

class Facts : Prop where
  bcast_S_S128x3x256x256 : S_.BroadcastsInDim S128x3x256x256 (![] : Fin 0 → Fin S128x3x256x256.rank)
  reducesTo_S128x3x256x256_S_d0_1_2_3 : S128x3x256x256.ReducesTo [0, 1, 2, 3] S_
  h_S_ : 0 < S_.numel
  bcast_S_S16x192 : S_.BroadcastsInDim S16x192 (![] : Fin 0 → Fin S16x192.rank)
  reducesTo_S16x192_S_d0_1 : S16x192.ReducesTo [0, 1] S_
  bcast_S_S16 : S_.BroadcastsInDim S16 (![] : Fin 0 → Fin S16.rank)
  reducesTo_S16_S_d0 : S16.ReducesTo [0] S_
  bcast_S_S192x16 : S_.BroadcastsInDim S192x16 (![] : Fin 0 → Fin S192x16.rank)
  reducesTo_S192x16_S_d0_1 : S192x16.ReducesTo [0, 1] S_
  bcast_S_S192 : S_.BroadcastsInDim S192 (![] : Fin 0 → Fin S192.rank)
  reducesTo_S192_S_d0 : S192.ReducesTo [0] S_

variable [Facts]

def fn_part1 {F : FTy → Type} [FloatOps F] (main_arg4 : FVec F S192 .f32) (main_v13 : IVec S_ 1) (main_v16 : IVec S192x16 1) : IVec S_ 1 :=
  let main_c_5 : IVec S_ 1 := constantI S_ 1 1#1
  let main_v17 : IVec S_ 1 := (fun x v => Host.reduce IntOp.andi x v reducesTo_S192x16_S_d0_1 h_S_) main_v16 main_c_5
  let main_v18 : IVec S_ 1 := andi main_v13 main_v17
  let main_v19 : FVec F S192 .f32 := Host.absf main_arg4
  let main_cst_6 : FVec F S_ .f32 := constant S_ .f32 0x7F800000#32
  let main_v20 : FVec F S192 .f32 := broadcastInDim S192 ![] bcast_S_S192 main_cst_6
  let main_v21 : IVec S192 1 := cmpf .olt main_v19 main_v20
  let main_c_7 : IVec S_ 1 := constantI S_ 1 1#1
  let main_v22 : IVec S_ 1 := (fun x v => Host.reduce IntOp.andi x v reducesTo_S192_S_d0 h_S_) main_v21 main_c_7
  let main_v23 : IVec S_ 1 := andi main_v18 main_v22
  main_v23

def fn {F : FTy → Type} [FloatOps F] (main_arg0 : FVec F S128x3x256x256 .f32) (main_arg1 : FVec F S16x192 .f32) (main_arg2 : FVec F S16 .f32) (main_arg3 : FVec F S192x16 .f32) (main_arg4 : FVec F S192 .f32) : IVec S_ 1 :=
  let main_v0 : FVec F S128x3x256x256 .f32 := Host.absf main_arg0
  let main_cst : FVec F S_ .f32 := constant S_ .f32 0x7F800000#32
  let main_v1 : FVec F S128x3x256x256 .f32 := broadcastInDim S128x3x256x256 ![] bcast_S_S128x3x256x256 main_cst
  let main_v2 : IVec S128x3x256x256 1 := cmpf .olt main_v0 main_v1
  let main_c : IVec S_ 1 := constantI S_ 1 1#1
  let main_v3 : IVec S_ 1 := (fun x v => Host.reduce IntOp.andi x v reducesTo_S128x3x256x256_S_d0_1_2_3 h_S_) main_v2 main_c
  let main_v4 : FVec F S16x192 .f32 := Host.absf main_arg1
  let main_cst_0 : FVec F S_ .f32 := constant S_ .f32 0x7F800000#32
  let main_v5 : FVec F S16x192 .f32 := broadcastInDim S16x192 ![] bcast_S_S16x192 main_cst_0
  let main_v6 : IVec S16x192 1 := cmpf .olt main_v4 main_v5
  let main_c_1 : IVec S_ 1 := constantI S_ 1 1#1
  let main_v7 : IVec S_ 1 := (fun x v => Host.reduce IntOp.andi x v reducesTo_S16x192_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S192x16 .f32 := Host.absf main_arg3
  let main_cst_4 : FVec F S_ .f32 := constant S_ .f32 0x7F800000#32
  let main_v15 : FVec F S192x16 .f32 := broadcastInDim S192x16 ![] bcast_S_S192x16 main_cst_4
  let main_v16 : IVec S192x16 1 := cmpf .olt main_v14 main_v15
  fn_part1 (F := F) main_arg4 main_v13 main_v16
-- ==== Kernel.lean ====
abbrev S128x3x256x256 : Shape := ⟨4, ![128, 3, 256, 256]⟩
abbrev S16x192 : Shape := ⟨2, ![16, 192]⟩
abbrev S16 : Shape := ⟨1, ![16]⟩
abbrev S192x16 : Shape := ⟨2, ![192, 16]⟩
abbrev S192 : Shape := ⟨1, ![192]⟩
abbrev S1x16 : Shape := ⟨2, ![1, 16]⟩
abbrev S1x192 : Shape := ⟨2, ![1, 192]⟩
abbrev S128x3x8x256 : Shape := ⟨4, ![128, 3, 8, 256]⟩
abbrev S32x3x8x256 : Shape := ⟨4, ![32, 3, 8, 256]⟩
abbrev S32x24x256 : Shape := ⟨3, ![32, 24, 256]⟩
abbrev S32x24x32x8 : Shape := ⟨4, ![32, 24, 32, 8]⟩
abbrev S32x32x24x8 : Shape := ⟨4, ![32, 32, 24, 8]⟩
abbrev S1024x192 : Shape := ⟨2, ![1024, 192]⟩
abbrev S1024x16 : Shape := ⟨2, ![1024, 16]⟩
abbrev S1024 : Shape := ⟨1, ![1024]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S128x3x256x256, .f32⟩
  | .hbm, ⟨1, _⟩ => ⟨S16x192, .f32⟩
  | .hbm, ⟨2, _⟩ => ⟨S16, .f32⟩
  | .hbm, ⟨3, _⟩ => ⟨S192x16, .f32⟩
  | .hbm, ⟨4, _⟩ => ⟨S192, .f32⟩
  | .hbm, ⟨5, _⟩ => ⟨S1x16, .f32⟩
  | .hbm, ⟨6, _⟩ => ⟨S1x192, .f32⟩
  | .hbm, ⟨7, _⟩ => ⟨S192x16, .f32⟩
  | .hbm, ⟨8, _⟩ => ⟨S16x192, .f32⟩
  | .hbm, ⟨9, _⟩ => ⟨S128x3x256x256, .f32⟩
  | .local _ .vmem, ⟨0, _⟩ => ⟨S128x3x8x256, .f32⟩
  | .local _ .vmem, ⟨1, _⟩ => ⟨S128x3x8x256, .f32⟩
  | .local _ .vmem, ⟨2, _⟩ => ⟨S192x16, .f32⟩
  | .local _ .vmem, ⟨3, _⟩ => ⟨S1x16, .f32⟩
  | .local _ .vmem, ⟨4, _⟩ => ⟨S16x192, .f32⟩
  | .local _ .vmem, ⟨5, _⟩ => ⟨S1x192, .f32⟩
  | .local _ .vmem, ⟨6, _⟩ => ⟨S128x3x8x256, .f32⟩
  | .local _ .vmem, ⟨7, _⟩ => ⟨S128x3x8x256, .f32⟩
  | _, _ => ⟨S128x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v8 : BitVec 32 := Scalar.addi c0_i32 c4_i32
  let c1_i32 : BitVec 32 := 1#32
  ⟨c0_i32, v8, c1_i32⟩
def k0_mult1 (k0_t1 : Fin k0_t1_loop.trips) : BitVec 32 :=
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v9 : BitVec 32 := Scalar.muli arg7 c1_i32_8
  let v10 : BitVec 32 := Scalar.addi c0_i32_9 v9
  let c32_i32 : BitVec 32 := 32#32
  let v11 : BitVec 32 := Scalar.muli v10 c32_i32
  v11
def k0_off1 (k0_t1 : Fin k0_t1_loop.trips) : Fin 4 → Nat :=
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v9 : BitVec 32 := Scalar.muli arg7 c1_i32_8
  let v10 : BitVec 32 := Scalar.addi c0_i32_9 v9
  let c32_i32 : BitVec 32 := 32#32
  let v11 : BitVec 32 := Scalar.muli v10 c32_i32
  let v12 : BitVec 32 := v11
  let v13 : Index := Scalar.indexCast v12
  let c0_10 : Index := 0#32
  let c0_11 : Index := 0#32
  let c0_12 : Index := 0#32
  ![v13.toNat, 0, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S128x3x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x3x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16_S1x16 : S16.ShapeCasts S1x16
  shapeCasts_S192_S1x192 : S192.ShapeCasts S1x192
  transposes_S16x192_S192x16_1_0 : S16x192.Transposes [1, 0] S192x16
  transposes_S192x16_S16x192_1_0 : S192x16.Transposes [1, 0] S16x192
  inb_S192x16_S192x16_0_0 : ∀ a, (![0, 0] : Fin 2 → Nat) a + S192x16.size a ≤ S192x16.size a
  h_S192x16 : 0 < S192x16.numel
  shapeCasts_S192x16_S192x16 : S192x16.ShapeCasts S192x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S16x192_S16x192_0_0 : ∀ a, (![0, 0] : Fin 2 → Nat) a + S16x192.size a ≤ S16x192.size a
  h_S16x192 : 0 < S16x192.numel
  shapeCasts_S16x192_S16x192 : S16x192.ShapeCasts S16x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  h_S32x3x8x256 : 0 < S32x3x8x256.numel
  shapeCasts_S32x3x8x256_S32x24x256 : S32x3x8x256.ShapeCasts S32x24x256
  shapeCasts_S32x24x256_S32x24x32x8 : S32x24x256.ShapeCasts S32x24x32x8
  transposes_S32x24x32x8_p0_2_1_3_S32x32x24x8 : S32x24x32x8.Transposes [0, 2, 1, 3] S32x32x24x8
  shapeCasts_S32x32x24x8_S1024x192 : S32x32x24x8.ShapeCasts S1024x192
  broadcasts_S1x16_S1024x16 : S1x16.Broadcasts S1024x16
  broadcasts_S1x192_S1024x192 : S1x192.Broadcasts S1024x192
  reduces_S1024x192_S1024 : S1024x192.Reduces [1] S1024
  shapeCasts_S1024_S1024x1 : S1024.ShapeCasts S1024x1
  broadcasts_S1024x1_S1024x192 : S1024x1.Broadcasts S1024x192
  shapeCasts_S1024x192_S32x32x24x8 : S1024x192.ShapeCasts S32x32x24x8
  transposes_S32x32x24x8_p0_2_1_3_S32x24x32x8 : S32x32x24x8.Transposes [0, 2, 1, 3] S32x24x32x8
  shapeCasts_S32x24x32x8_S32x24x256 : S32x24x32x8.ShapeCasts S32x24x256
  shapeCasts_S32x24x256_S32x3x8x256 : S32x24x256.ShapeCasts S32x3x8x256
  dot_S1024x192_S192x16_S1024x16_1_0_0_1_n_n_wf : DotDims.WF S1024x192 S192x16 S1024x16 [1] [0] [0] [1] [] []
  dot_S1024x16_S16x192_S1024x192_1_0_0_1_n_n_wf : DotDims.WF S1024x16 S16x192 S1024x192 [1] [0] [0] [1] [] []
  hrank0 : 0 < grid0.rank
  k0_t1_ok : k0_t1_loop.OK
  k0_mult1_dvd : ∀ k0_t1 : Fin k0_t1_loop.trips, 32 ∣ (k0_mult1 k0_t1).toNat
  k0_off1_inb : ∀ k0_t1 : Fin k0_t1_loop.trips, ∀ a, (k0_off1 k0_t1) a + S32x3x8x256.size a ≤ S128x3x8x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x3x8x256.size a ≤ S128x3x256x256.size a
  hwx0_0 : ∀ i : grid0.Coords, EltTy.bits .f32 = 32 ∨ (Rect.block (s := S128x3x256x256) S128x3x8x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x16.size a ≤ S192x16.size a
  hwx0_1 : ∀ i : grid0.Coords, EltTy.bits .f32 = 32 ∨ (Rect.block (s := S192x16) S192x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x192.size a ≤ S16x192.size a
  hwx0_3 : ∀ i : grid0.Coords, EltTy.bits .f32 = 32 ∨ (Rect.block (s := S16x192) S16x192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x192.size a ≤ S1x192.size a
  hwx0_4 : ∀ i : grid0.Coords, EltTy.bits .f32 = 32 ∨ (Rect.block (s := S1x192) S1x192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x3x8x256.size a ≤ S128x3x256x256.size a
  hwx0_5 : ∀ i : grid0.Coords, EltTy.bits .f32 = 32 ∨ (Rect.block (s := S128x3x256x256) S128x3x8x256.size (cc0_transform_5 i) (hinb0_5 i)).WholeWords (EltTy.packing .f32)

variable [Facts₀]

def dot_S1024x192_S192x16_S1024x16_1_0_0_1_n_n : DotDims S1024x192 S192x16 S1024x16 where
  lhsContracting := [1]
  rhsContracting := [0]
  lhsNonContracting := [0]
  rhsNonContracting := [1]
  lhsBatch := []
  rhsBatch := []
  wf := dot_S1024x192_S192x16_S1024x16_1_0_0_1_n_n_wf
def dot_S1024x16_S16x192_S1024x192_1_0_0_1_n_n : DotDims S1024x16 S16x192 S1024x192 where
  lhsContracting := [1]
  rhsContracting := [0]
  lhsNonContracting := [0]
  rhsNonContracting := [1]
  lhsBatch := []
  rhsBatch := []
  wf := dot_S1024x16_S16x192_S1024x192_1_0_0_1_n_n_wf

abbrev win0_0 : Pipeline.Window sig grid0 :=
  Pipeline.Window.ofSpec (Memref.whole main_arg0) S128x3x8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S192x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x3x8x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x3x256x256 : Shape := ⟨4, ![128, 3, 256, 256]⟩
abbrev S16x192 : Shape := ⟨2, ![16, 192]⟩
abbrev S16 : Shape := ⟨1, ![16]⟩
abbrev S192x16 : Shape := ⟨2, ![192, 16]⟩
abbrev S192 : Shape := ⟨1, ![192]⟩
abbrev S128x3x32x8x32x8 : Shape := ⟨6, ![128, 3, 32, 8, 32, 8]⟩
abbrev S128x32x32x3x8x8 : Shape := ⟨6, ![128, 32, 32, 3, 8, 8]⟩
abbrev S128x32x32x192 : Shape := ⟨4, ![128, 32, 32, 192]⟩
abbrev S128x32x32x16 : Shape := ⟨4, ![128, 32, 32, 16]⟩
abbrev S1x1x1x16 : Shape := ⟨4, ![1, 1, 1, 16]⟩
abbrev S_ : Shape := ⟨0, ![]⟩
abbrev S1x1x1x192 : Shape := ⟨4, ![1, 1, 1, 192]⟩
abbrev S128x32x32 : Shape := ⟨3, ![128, 32, 32]⟩
abbrev S128x32x32x1 : Shape := ⟨4, ![128, 32, 32, 1]⟩

abbrev nBuf : Space → Nat
  | .hbm => 40
  | .vmem => 0
  | .smem => 0
  | _ => 0

abbrev bufTy : (tb : Table) → Fin (tcTables nBuf tb) → BufTy
  | .hbm, ⟨0, _⟩ => ⟨S128x3x256x256, .f32⟩
  | .hbm, ⟨1, _⟩ => ⟨S16x192, .f32⟩
  | .hbm, ⟨2, _⟩ => ⟨S16, .f32⟩
  | .hbm, ⟨3, _⟩ => ⟨S192x16, .f32⟩
  | .hbm, ⟨4, _⟩ => ⟨S192, .f32⟩
  | .hbm, ⟨5, _⟩ => ⟨S128x3x32x8x32x8, .f32⟩
  | .hbm, ⟨6, _⟩ => ⟨S128x32x32x3x8x8, .f32⟩
  | .hbm, ⟨7, _⟩ => ⟨S128x32x32x192, .f32⟩
  | .hbm, ⟨8, _⟩ => ⟨S128x32x32x16, .f32⟩
  | .hbm, ⟨9, _⟩ => ⟨S1x1x1x16, .f32⟩
  | .hbm, ⟨10, _⟩ => ⟨S128x32x32x16, .f32⟩
  | .hbm, ⟨11, _⟩ => ⟨S128x32x32x16, .f32⟩
  | .hbm, ⟨12, _⟩ => ⟨S_, .f32⟩
  | .hbm, ⟨13, _⟩ => ⟨S128x32x32x16, .f32⟩
  | .hbm, ⟨14, _⟩ => ⟨S128x32x32x16, .f32⟩
  | .hbm, ⟨15, _⟩ => ⟨S128x32x32x192, .f32⟩
  | .hbm, ⟨16, _⟩ => ⟨S1x1x1x192, .f32⟩
  | .hbm, ⟨17, _⟩ => ⟨S128x32x32x192, .f32⟩
  | .hbm, ⟨18, _⟩ => ⟨S128x32x32x192, .f32⟩
  | .hbm, ⟨19, _⟩ => ⟨S_, .f32⟩
  | .hbm, ⟨20, _⟩ => ⟨S128x32x32x192, .f32⟩
  | .hbm, ⟨21, _⟩ => ⟨S128x32x32x192, .f32⟩
  | .hbm, ⟨22, _⟩ => ⟨S_, .f32⟩
  | .hbm, ⟨23, _⟩ => ⟨S128x32x32, .f32⟩
  | .hbm, ⟨24, _⟩ => ⟨S_, .f32⟩
  | .hbm, ⟨25, _⟩ => ⟨S128x32x32, .f32⟩
  | .hbm, ⟨26, _⟩ => ⟨S128x32x32, .f32⟩
  | .hbm, ⟨27, _⟩ => ⟨S128x32x32x1, .f32⟩
  | .hbm, ⟨28, _⟩ => ⟨S128x32x32x192, .f32⟩
  | .hbm, ⟨29, _⟩ => ⟨S128x32x32x192, .f32⟩
  | .hbm, ⟨30, _⟩ => ⟨S128x32x32x192, .f32⟩
  | .hbm, ⟨31, _⟩ => ⟨S_, .f32⟩
  | .hbm, ⟨32, _⟩ => ⟨S128x32x32, .f32⟩
  | .hbm, ⟨33, _⟩ => ⟨S128x32x32x1, .f32⟩
  | .hbm, ⟨34, _⟩ => ⟨S128x32x32x192, .f32⟩
  | .hbm, ⟨35, _⟩ => ⟨S128x32x32x192, .f32⟩
  | .hbm, ⟨36, _⟩ => ⟨S128x32x32x192, .f32⟩
  | .hbm, ⟨37, _⟩ => ⟨S128x32x32x3x8x8, .f32⟩
  | .hbm, ⟨38, _⟩ => ⟨S128x3x32x8x32x8, .f32⟩
  | .hbm, ⟨39, _⟩ => ⟨S128x3x256x256, .f32⟩
  | _, _ => ⟨S128x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call1_cst : Ref sig .tc := ⟨.hbm, 19, rfl⟩
abbrev main_call1_v0 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  shapeCasts_S128x3x256x256_S128x3x32x8x32x8 : S128x3x256x256.ShapeCasts S128x3x32x8x32x8
  transposes_S128x3x32x8x32x8_S128x32x32x3x8x8_0_2_4_1_3_5 : S128x3x32x8x32x8.Transposes [0, 2, 4, 1, 3, 5] S128x32x32x3x8x8
  shapeCasts_S128x32x32x3x8x8_S128x32x32x192 : S128x32x32x3x8x8.ShapeCasts S128x32x32x192
  bcast_S16_S1x1x1x16_3 : S16.BroadcastsInDim S1x1x1x16 (![3] : Fin 1 → Fin S1x1x1x16.rank)
  bcast_S1x1x1x16_S128x32x32x16_0_1_2_3 : S1x1x1x16.BroadcastsInDim S128x32x32x16 (![0, 1, 2, 3] : Fin 4 → Fin S128x32x32x16.rank)
  bcast_S_S128x32x32x16 : S_.BroadcastsInDim S128x32x32x16 (![] : Fin 0 → Fin S128x32x32x16.rank)
  bcast_S192_S1x1x1x192_3 : S192.BroadcastsInDim S1x1x1x192 (![3] : Fin 1 → Fin S1x1x1x192.rank)
  bcast_S1x1x1x192_S128x32x32x192_0_1_2_3 : S1x1x1x192.BroadcastsInDim S128x32x32x192 (![0, 1, 2, 3] : Fin 4 → Fin S128x32x32x192.rank)
  bcast_S_S128x32x32x192 : S_.BroadcastsInDim S128x32x32x192 (![] : Fin 0 → Fin S128x32x32x192.rank)
  reducesTo_S128x32x32x192_S128x32x32_d3 : S128x32x32x192.ReducesTo [3] S128x32x32
  h_S_ : 0 < S_.numel
  bcast_S_S128x32x32 : S_.BroadcastsInDim S128x32x32 (![] : Fin 0 → Fin S128x32x32.rank)
  bcast_S128x32x32_S128x32x32x1_0_1_2 : S128x32x32.BroadcastsInDim S128x32x32x1 (![0, 1, 2] : Fin 3 → Fin S128x32x32x1.rank)
  bcast_S128x32x32x1_S128x32x32x192_0_1_2_3 : S128x32x32x1.BroadcastsInDim S128x32x32x192 (![0, 1, 2, 3] : Fin 4 → Fin S128x32x32x192.rank)
  shapeCasts_S128x32x32x192_S128x32x32x3x8x8 : S128x32x32x192.ShapeCasts S128x32x32x3x8x8
  transposes_S128x32x32x3x8x8_S128x3x32x8x32x8_0_3_1_4_2_5 : S128x32x32x3x8x8.Transposes [0, 3, 1, 4, 2, 5] S128x3x32x8x32x8
  shapeCasts_S128x3x32x8x32x8_S128x3x256x256 : S128x3x32x8x32x8.ShapeCasts S128x3x256x256
  dot_S128x32x32x192_S16x192_S128x32x32x16_3_1_012_0_n_n_wf : DotDims.WF S128x32x32x192 S16x192 S128x32x32x16 [3] [1] [0, 1, 2] [0] [] []
  dot_S128x32x32x16_S192x16_S128x32x32x192_3_1_012_0_n_n_wf : DotDims.WF S128x32x32x16 S192x16 S128x32x32x192 [3] [1] [0, 1, 2] [0] [] []

variable [Facts₀]

def dot_S128x32x32x192_S16x192_S128x32x32x16_3_1_012_0_n_n : DotDims S128x32x32x192 S16x192 S128x32x32x16 where
  lhsContracting := [3]
  rhsContracting := [1]
  lhsNonContracting := [0, 1, 2]
  rhsNonContracting := [0]
  lhsBatch := []
  rhsBatch := []
  wf := dot_S128x32x32x192_S16x192_S128x32x32x16_3_1_012_0_n_n_wf
def dot_S128x32x32x16_S192x16_S128x32x32x192_3_1_012_0_n_n : DotDims S128x32x32x16 S192x16 S128x32x32x192 where
  lhsContracting := [3]
  rhsContracting := [1]
  lhsNonContracting := [0, 1, 2]
  rhsNonContracting := [0]
  lhsBatch := []
  rhsBatch := []
  wf := dot_S128x32x32x16_S192x16_S128x32x32x192_3_1_012_0_n_n_wf

class Facts : Prop extends Facts₀ where

variable [Facts]
-- ==== Proof.PatchSpec.lean ====
/-
  The function both programs compute, stated once over the argument arrays.

  The image x : [128, 3, 256, 256] is cut into 8 × 8 patches: patch (b, i, j) gathers, for every channel c and every
  position (r, s) inside the patch, the entry x[b, c, 8·i + r, 8·j + s] as its feature c·64 + r·8 + s (192 features).
  Each patch goes, on its own, through a two-layer perceptron with rectifiers — 16 hidden units, then 192 outputs —,
  the 192 outputs are weighted by their own softmax, and the weighted outputs are scattered back to the positions
  the features came from. Nothing here mentions a program: the sums are sums over `Fin 192` and `Fin 16`, the
  row maximum is a fold of `max`.
-/
import Idealize.ShloMosaic.Lib.ValueIdx
import Idealize.ShloMosaic.PureOps.Ideal

noncomputable section

namespace Cert.PatchSpec

open Idealize.ShloMosaic Idealize.ShloMosaic.ValueIdx

/-- The two literals of the programs, kept as the words they are printed as: zero (the rectifier's floor) and
    minus infinity (where the row maximum starts). -/
abbrev zero : EReal := Ideal.ofBits .f32 0x00000000#32
abbrev negInf : EReal := Ideal.ofBits .f32 0xFF800000#32

/-- Feature `f` of patch `(b, i, j)`: channel `f / 64`, row `f / 8 % 8` and column `f % 8` inside the patch. -/
def patch (x : FVec Ideal ⟨4, ![128, 3, 256, 256]⟩ .f32) (b : Fin 128) (i j : Fin 32) (f : Fin 192) : EReal :=
  x (ix4 b (⟨f.val / 64, by omega⟩ : Fin 3) (⟨8 * i.val + f.val / 8 % 8, by omega⟩ : Fin 256)
    (⟨8 * j.val + f.val % 8, by omega⟩ : Fin 256))

/-- The hidden layer: unit `e` is the rectified affine form of the patch's features. -/
def hidden (we : Fin 16 → Fin 192 → EReal) (be : Fin 16 → EReal) (p : Fin 192 → EReal) (e : Fin 16) : EReal :=
  max ((∑ f : Fin 192, p f * we e f) + be e) zero

/-- The output layer: output `f` is the rectified affine form of the hidden units. -/
def decoded (wd : Fin 192 → Fin 16 → EReal) (bd : Fin 192 → EReal) (h : Fin 16 → EReal) (f : Fin 192) : EReal :=
  max ((∑ e : Fin 16, h e * wd f e) + bd f) zero

/-- The largest of a row's 192 outputs, the fold started at minus infinity (and compared with it once more, as
    both programs do). -/
def rowMax (o : Fin 192 → EReal) : EReal :=
  max negInf ((Finset.univ : Finset (Fin 192)).fold max negInf o)

/-- Output `f` weighted by its softmax weight within the row. -/
def attend (o : Fin 192 → EReal) (f : Fin 192) : EReal :=
  Ideal.div (Ideal.exp (o f - rowMax o)) (∑ g : Fin 192, Ideal.exp (o g - rowMax o)) * o f

/-- A patch's 192 features to its 192 weighted outputs. -/
def row (we : Fin 16 → Fin 192 → EReal) (be : Fin 16 → EReal) (wd : Fin 192 → Fin 16 → EReal) (bd : Fin 192 → EReal)
    (p : Fin 192 → EReal) : Fin 192 → EReal :=
  attend (decoded wd bd (hidden we be p))

/-- The same gathering out of a block of 8 image rows (all batches, all channels, rows 8·t … 8·t + 7 of the image):
    patch column `j` of batch `b`. -/
def blockPatch (x0 : FVec Ideal ⟨4, ![128, 3, 8, 256]⟩ .f32) (b : Fin 128) (j : Fin 32) (f : Fin 192) : EReal :=
  x0 (ix4 b (⟨f.val / 64, by omega⟩ : Fin 3) (⟨f.val / 8 % 8, by omega⟩ : Fin 8) (⟨8 * j.val + f.val % 8, by omega⟩ : Fin 256))

/-- … and out of a chunk of 32 batches of such a block. -/
def chunkPatch (v : FVec Ideal ⟨4, ![32, 3, 8, 256]⟩ .f32) (bb : Fin 32) (j : Fin 32) (f : Fin 192) : EReal :=
  v (ix4 bb (⟨f.val / 64, by omega⟩ : Fin 3) (⟨f.val / 8 % 8, by omega⟩ : Fin 8) (⟨8 * j.val + f.val % 8, by omega⟩ : Fin 256))

/-- The feature a position `(c, r, w)` of a block of 8 image rows is, within its patch. -/
def featIn (c : Fin 3) (r : Fin 8) (w : Fin 256) : Fin 192 := ⟨c.val * 64 + r.val * 8 + w.val % 8, by omega⟩

/-- The patch row or column an image row or column lies in. -/
def blkOf (h : Fin 256) : Fin 32 := ⟨h.val / 8, by omega⟩

/-- The feature an image position is, within its patch. -/
def featOf (c : Fin 3) (h w : Fin 256) : Fin 192 := ⟨c.val * 64 + h.val % 8 * 8 + w.val % 8, by omega⟩

/-- The result at image position `(b, c, h, w)`. -/
def Gc (x : FVec Ideal ⟨4, ![128, 3, 256, 256]⟩ .f32) (we : FVec Ideal ⟨2, ![16, 192]⟩ .f32) (be : FVec Ideal ⟨1, ![16]⟩ .f32)
    (wd : FVec Ideal ⟨2, ![192, 16]⟩ .f32) (bd : FVec Ideal ⟨1, ![192]⟩ .f32) (b : Fin 128) (c : Fin 3) (h w : Fin 256) : EReal :=
  row (fun e f => we (ix2 e f)) (fun e => be (ix1 e)) (fun f e => wd (ix2 f e)) (fun f => bd (ix1 f))
    (patch x b (blkOf h) (blkOf w)) (featOf c h w)

/-- The result array as one function of the five argument arrays. -/
def G (x : FVec Ideal ⟨4, ![128, 3, 256, 256]⟩ .f32) (we : FVec Ideal ⟨2, ![16, 192]⟩ .f32) (be : FVec Ideal ⟨1, ![16]⟩ .f32)
    (wd : FVec Ideal ⟨2, ![192, 16]⟩ .f32) (bd : FVec Ideal ⟨1, ![192]⟩ .f32) : FVec Ideal ⟨4, ![128, 3, 256, 256]⟩ .f32 :=
  fun y => Gc x we be wd bd (y 0) (y 1) (y 2) (y 3)

theorem G_ix4 (x : FVec Ideal ⟨4, ![128, 3, 256, 256]⟩ .f32) (we : FVec Ideal ⟨2, ![16, 192]⟩ .f32) (be : FVec Ideal ⟨1, ![16]⟩ .f32)
    (wd : FVec Ideal ⟨2, ![192, 16]⟩ .f32) (bd : FVec Ideal ⟨1, ![192]⟩ .f32) (b : Fin 128) (c : Fin 3) (h w : Fin 256) :
    G x we be wd bd (ix4 b c h w) = Gc x we be wd bd b c h w := rfl

end Cert.PatchSpec

end
-- ==== Proof.PayloadDefs.lean ====
/-
  The kernel body's arithmetic cut into its four stages: the chunk re-laid as a matrix with one patch per row, the
  two rectified affine layers, the softmax weighting of a row, and the matrix re-laid as a chunk. The body's
  stored value is their composition.
-/
import proofs.«164859_j85478439125884_2_alg».proof.Proof.Gen.KernelIdeal.Skeleton

noncomputable section

namespace Cert.KernelIdeal.Payload

open Cert.KernelIdeal Cert.KernelIdeal.Gen Idealize.ShloMosaic

variable {F : FTy → Type} [FloatOps F]

/-- The chunk [32, 3, 8, 256] as the matrix [1024, 192]: row 32·bb + j is patch (bb, j), column c·64 + r·8 + s
    its entry at channel c, row r, column s. -/
def patchMat (v14 : Vec F S32x3x8x256 .f32) : FVec F S1024x192 .f32 :=
  have v15 : FVec F S32x24x256 .f32 := shapeCast S32x24x256 v14 shapeCasts_S32x3x8x256_S32x24x256
  have v16 : FVec F S32x24x32x8 .f32 := shapeCast S32x24x32x8 v15 shapeCasts_S32x24x256_S32x24x32x8
  have v17 : FVec F S32x32x24x8 .f32 := transpose S32x32x24x8 [0, 2, 1, 3] v16 transposes_S32x24x32x8_p0_2_1_3_S32x32x24x8
  shapeCast S1024x192 v17 shapeCasts_S32x32x24x8_S1024x192

/-- The two layers on every row of a patch matrix: 16 rectified hidden units, then 192 rectified outputs. -/
def layers (v0 : Vec F S192x16 .f32) (v2 : Vec F S1x16 .f32) (v4 : Vec F S16x192 .f32) (v6 : Vec F S1x192 .f32)
    (v18 : FVec F S1024x192 .f32) : FVec F S1024x192 .f32 :=
  have v1 : FVec F S192x16 .f32 := shapeCast S192x16 v0 shapeCasts_S192x16_S192x16
  have v3 : FVec F S1x16 .f32 := shapeCast S1x16 v2 shapeCasts_S1x16_S1x16
  have v5 : FVec F S16x192 .f32 := shapeCast S16x192 v4 shapeCasts_S16x192_S16x192
  have v7 : FVec F S1x192 .f32 := shapeCast S1x192 v6 shapeCasts_S1x192_S1x192
  have cst : FVec F S1024x16 .f32 := constant S1024x16 .f32 0x00000000#32
  have v19 : FVec F S1024x16 .f32 := matmul dot_S1024x192_S192x16_S1024x16_1_0_0_1_n_n none v18 v1 cst
  have v20 : FVec F S1024x16 .f32 := broadcastTo S1024x16 v3 broadcasts_S1x16_S1024x16
  have v21 : FVec F S1024x16 .f32 := addf v19 v20
  have cst_13 : F .f32 := Scalar.ofBits .f32 0x00000000#32
  have v22 : FVec F S1024x16 .f32 := broadcast S1024x16 cst_13
  have v23 : FVec F S1024x16 .f32 := maximumf v21 v22
  have cst_14 : FVec F S1024x192 .f32 := constant S1024x192 .f32 0x00000000#32
  have v24 : FVec F S1024x192 .f32 := matmul dot_S1024x16_S16x192_S1024x192_1_0_0_1_n_n none v23 v5 cst_14
  have v25 : FVec F S1024x192 .f32 := broadcastTo S1024x192 v7 broadcasts_S1x192_S1024x192
  have v26 : FVec F S1024x192 .f32 := addf v24 v25
  have cst_15 : F .f32 := Scalar.ofBits .f32 0x00000000#32
  have v27 : FVec F S1024x192 .f32 := broadcast S1024x192 cst_15
  maximumf v26 v27

/-- Every row's outputs weighted by the row's softmax. -/
def softmaxMul (v28 : FVec F S1024x192 .f32) : FVec F S1024x192 .f32 :=
  have v29 : FVec F S1024 .f32 := multiReduction .maximumf [1] S1024 v28 0xFF800000#32 reduces_S1024x192_S1024 (.inl rfl) rfl
  have cst_17 : F .f32 := Scalar.ofBits .f32 0xFF800000#32
  have v30 : FVec F S1024 .f32 := broadcast S1024 cst_17
  have v31 : FVec F S1024 .f32 := maximumf v30 v29
  have v32 : FVec F S1024x1 .f32 := shapeCast S1024x1 v31 shapeCasts_S1024_S1024x1
  have v33 : FVec F S1024x192 .f32 := broadcastTo S1024x192 v32 broadcasts_S1024x1_S1024x192
  have v34 : FVec F S1024x192 .f32 := subf v28 v33
  have v35 : FVec F S1024x192 .f32 := exp v34
  have v36 : FVec F S1024 .f32 := multiReduction .add [1] S1024 v35 0x00000000#32 reduces_S1024x192_S1024 (.inl rfl) rfl
  have v37 : FVec F S1024x1 .f32 := shapeCast S1024x1 v36 shapeCasts_S1024_S1024x1
  have v38 : FVec F S1024x192 .f32 := broadcastTo S1024x192 v37 broadcasts_S1024x1_S1024x192
  have v39 : FVec F S1024x192 .f32 := divf v35 v38
  mulf v39 v28

/-- The matrix [1024, 192] back as a chunk [32, 3, 8, 256]: the inverse re-laying. -/
def unpatchMat (v40 : FVec F S1024x192 .f32) : FVec F S32x3x8x256 .f32 :=
  have v41 : FVec F S32x32x24x8 .f32 := shapeCast S32x32x24x8 v40 shapeCasts_S1024x192_S32x32x24x8
  have v42 : FVec F S32x24x32x8 .f32 := transpose S32x24x32x8 [0, 2, 1, 3] v41 transposes_S32x32x24x8_p0_2_1_3_S32x24x32x8
  have v43 : FVec F S32x24x256 .f32 := shapeCast S32x24x256 v42 shapeCasts_S32x24x32x8_S32x24x256
  shapeCast S32x3x8x256 v43 shapeCasts_S32x24x256_S32x3x8x256

/-- The value a trip of the body's loop stores is the composition of the four stages. -/
theorem pay_split (v0 : Vec F S192x16 .f32) (v2 : Vec F S1x16 .f32) (v4 : Vec F S16x192 .f32) (v6 : Vec F S1x192 .f32)
    (v14 : Vec F S32x3x8x256 .f32) :
    k0_pay1 v0 v2 v4 v6 v14 = unpatchMat (softmaxMul (layers v0 v2 v4 v6 (patchMat v14))) := rfl

end Cert.KernelIdeal.Payload

end
-- ==== Proof.PayloadTail.lean ====
/-
  The last two stages of the kernel body's arithmetic read at an index: a row's softmax weighting, and the
  re-laying of the [1024, 192] matrix (one patch per row) as a chunk [32, 3, 8, 256].
-/
import proofs.«164859_j85478439125884_2_alg».proof.Proof.PayloadDefs
import proofs.«164859_j85478439125884_2_alg».proof.Proof.PatchSpec
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.PatchSpec

section Softmax

/-- The row maxima of a matrix, each started at minus infinity and compared with it once more. -/
def rowMaxVec (O : FVec Ideal S1024x192 .f32) : FVec Ideal S1024 .f32 :=
  maximumf (broadcast S1024 (Scalar.ofBits (F := Ideal) .f32 0xFF800000#32))
    (multiReduction .maximumf [1] S1024 O 0xFF800000#32 reduces_S1024x192_S1024 (.inl rfl) rfl)

/-- A vector of 1024 row values spread along the rows of a [1024, 192] matrix. -/
def alongRows (v : FVec Ideal S1024 .f32) : FVec Ideal S1024x192 .f32 :=
  broadcastTo S1024x192 (shapeCast S1024x1 v shapeCasts_S1024_S1024x1) broadcasts_S1024x1_S1024x192

/-- The exponentials of the entries less their row's maximum. -/
def expMat (O : FVec Ideal S1024x192 .f32) : FVec Ideal S1024x192 .f32 :=
  exp (subf O (alongRows (rowMaxVec O)))

theorem softmaxMul_eq (O : FVec Ideal S1024x192 .f32) :
    softmaxMul (F := Ideal) O
      = mulf (divf (expMat O) (alongRows (multiReduction .add [1] S1024 (expMat O) 0x00000000#32 reduces_S1024x192_S1024 (.inl rfl) rfl))) O := rfl

/-- The index of a row's entry `g`, as the reduction over the columns names it. -/
theorem lift_row (ρ : Fin 1024) (g : Fin 192) :
    reduces_S1024x192_S1024.lift (ix1 ρ) g = ix2 ρ g :=
  funext fun a => Fin.ext (by match a with | ⟨0, _⟩ => rfl | ⟨1, _⟩ => rfl)

theorem alongRows_apply (v : FVec Ideal S1024 .f32) (ρ : Fin 1024) (f : Fin 192) :
    alongRows v (ix2 ρ f) = v (ix1 ρ) := by
  unfold alongRows
  refine (broadcastTo_apply _ broadcasts_S1024x1_S1024x192 (ix2 ρ f) (ix2 ρ (0 : Fin 1)) (fun a => by
    match a with
    | ⟨0, _⟩ => show ρ.val = if (1024 : Nat) = 1 then 0 else ρ.val; rw [if_neg (by decide)]
    | ⟨1, _⟩ => show 0 = if (1 : Nat) = 1 then 0 else f.val; rw [if_pos rfl])).trans ?_
  exact shapeCast_apply v shapeCasts_S1024_S1024x1 (ix2 ρ (0 : Fin 1)) (ix1 ρ) (by
    rw [Shape.rowMajor_val_one, Shape.rowMajor_val_two]
    show ρ.val = ρ.val * 1 + 0
    omega)

theorem rowMaxVec_apply (O : FVec Ideal S1024x192 .f32) (ρ : Fin 1024) :
    rowMaxVec O (ix1 ρ) = rowMax (fun g => O (ix2 ρ g)) := by
  unfold rowMaxVec rowMax
  show max negInf (multiReduction .maximumf [1] S1024 O 0xFF800000#32 reduces_S1024x192_S1024 (.inl rfl) rfl (ix1 ρ)) = _
  refine congrArg (max negInf) ?_
  refine (Ideal.multiReduction_maximumf_single O 0xFF800000#32 reduces_S1024x192_S1024 (.inl rfl) rfl (ix1 ρ)).trans ?_
  refine congrArg (Finset.fold max _ · Finset.univ) (funext fun g => ?_)
  exact congrArg O (lift_row ρ g)

theorem expMat_apply (O : FVec Ideal S1024x192 .f32) (ρ : Fin 1024) (g : Fin 192) :
    expMat O (ix2 ρ g) = Ideal.exp (O (ix2 ρ g) - rowMax (fun g => O (ix2 ρ g))) := by
  unfold expMat
  show Ideal.exp (O (ix2 ρ g) - alongRows (rowMaxVec O) (ix2 ρ g)) = _
  rw [alongRows_apply, rowMaxVec_apply]

theorem rowSum_apply (E : FVec Ideal S1024x192 .f32) (ρ : Fin 1024) :
    multiReduction .add [1] S1024 E 0x00000000#32 reduces_S1024x192_S1024 (.inl rfl) rfl (ix1 ρ) = ∑ g : Fin 192, E (ix2 ρ g) := by
  refine (Ideal.multiReduction_add_single E 0x00000000#32 reduces_S1024x192_S1024 (.inl rfl) rfl (ix1 ρ)).trans ?_
  exact Finset.sum_congr rfl fun g _ => congrArg E (lift_row ρ g)

end Softmax

/-- Entry (ρ, f) of the weighted matrix: output f of row ρ times its softmax weight within the row. -/
theorem softmaxMul_apply (O : FVec Ideal S1024x192 .f32) (ρ : Fin 1024) (f : Fin 192) :
    softmaxMul (F := Ideal) O (ix2 ρ f) = attend (fun g => O (ix2 ρ g)) f := by
  rw [softmaxMul_eq]
  show Ideal.div (expMat O (ix2 ρ f)) (alongRows _ (ix2 ρ f)) * O (ix2 ρ f) = _
  rw [alongRows_apply, rowSum_apply, expMat_apply]
  unfold attend
  refine congrArg (fun s => Ideal.div _ s * _) (Finset.sum_congr rfl fun g _ => ?_)
  rw [expMat_apply]

/-- Entry (bb, c, r, w) of the chunk is entry (32·bb + w / 8, c·64 + r·8 + w % 8) of the matrix. -/
theorem unpatchMat_apply (M : FVec Ideal S1024x192 .f32) (bb : Fin 32) (c : Fin 3) (r : Fin 8) (w : Fin 256) :
    unpatchMat (F := Ideal) M (ix4 bb c r w)
      = M (ix2 (⟨bb.val * 32 + w.val / 8, by omega⟩ : Fin 1024) (featIn c r w)) := by
  unfold unpatchMat
  -- [32, 3, 8, 256] ← [32, 24, 256]: channel c and patch row r merge into c·8 + r
  refine (shapeCast_apply _ shapeCasts_S32x24x256_S32x3x8x256 (ix4 bb c r w)
    (ix3 bb (⟨c.val * 8 + r.val, by omega⟩ : Fin 24) w) (by
      rw [Shape.rowMajor_val_three, Shape.rowMajor_val_four]
      show (bb.val * 24 + (c.val * 8 + r.val)) * 256 + w.val = ((bb.val * 3 + c.val) * 8 + r.val) * 256 + w.val
      omega)).trans ?_
  -- [32, 24, 256] ← [32, 24, 32, 8]: the image column w splits into patch column w / 8 and w % 8
  refine (shapeCast_apply _ shapeCasts_S32x24x32x8_S32x24x256 (ix3 bb (⟨c.val * 8 + r.val, by omega⟩ : Fin 24) w)
    (ix4 bb (⟨c.val * 8 + r.val, by omega⟩ : Fin 24) (⟨w.val / 8, by omega⟩ : Fin 32) (⟨w.val % 8, by omega⟩ : Fin 8)) (by
      rw [Shape.rowMajor_val_four, Shape.rowMajor_val_three]
      show ((bb.val * 24 + (c.val * 8 + r.val)) * 32 + w.val / 8) * 8 + w.val % 8 = (bb.val * 24 + (c.val * 8 + r.val)) * 256 + w.val
      omega)).trans ?_
  -- the two middle axes swap
  refine (transpose_apply [0, 2, 1, 3] _ transposes_S32x32x24x8_p0_2_1_3_S32x24x32x8
    (ix4 bb (⟨c.val * 8 + r.val, by omega⟩ : Fin 24) (⟨w.val / 8, by omega⟩ : Fin 32) (⟨w.val % 8, by omega⟩ : Fin 8))
    (ix4 bb (⟨w.val / 8, by omega⟩ : Fin 32) (⟨c.val * 8 + r.val, by omega⟩ : Fin 24) (⟨w.val % 8, by omega⟩ : Fin 8))
    (fun b => match b with | ⟨0, _⟩ => rfl | ⟨1, _⟩ => rfl | ⟨2, _⟩ => rfl | ⟨3, _⟩ => rfl)).trans ?_
  -- [32, 32, 24, 8] ← [1024, 192]: row 32·bb + w / 8, column (c·8 + r)·8 + w % 8
  exact shapeCast_apply M shapeCasts_S1024x192_S32x32x24x8 _
    (ix2 (⟨bb.val * 32 + w.val / 8, by omega⟩ : Fin 1024) (featIn c r w)) (by
      rw [Shape.rowMajor_val_two, Shape.rowMajor_val_four]
      show (bb.val * 32 + w.val / 8) * 192 + (c.val * 64 + r.val * 8 + w.val % 8)
        = ((bb.val * 32 + w.val / 8) * 24 + (c.val * 8 + r.val)) * 8 + w.val % 8
      omega)

end Cert.KernelIdeal.Payload

end
-- ==== Proof.Payload.lean ====
/-
  The kernel body's arithmetic, read at one index of what a trip of its loop stores: the entry at position
  (bb, c, r, w) of the stored [32, 3, 8, 256] value is the weighted output `featIn c r w` of the patch
  (bb, w / 8) of the loaded chunk.
-/
import proofs.«164859_j85478439125884_2_alg».proof.Proof.Gen.KernelIdeal.Skeleton
import proofs.«164859_j85478439125884_2_alg».proof.Proof.PatchSpec
import proofs.«164859_j85478439125884_2_alg».proof.Proof.PayloadTail
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.PatchSpec

/-! The two stages proved here are first stated over the operations themselves (`patches`, `hiddenM`, `decodedM`), with
every operand a variable, then carried to the stages of the body's stored value. -/

namespace Head

/-! ## The layout operations on the way in

The chunk [32, 3, 8, 256] becomes a matrix [1024, 192] whose row `bb * 32 + j` is patch `(bb, j)` and whose column
`f` is feature `f` of the patch. Each of the four operations is read at explicit coordinates; the arithmetic is that
of row-major positions. -/

section Layout
variable {α : Type}

/-- The row of the [1024, 192] matrix that holds patch `(bb, j)`. -/
def rowIx (bb j : Fin 32) : Fin 1024 := ⟨bb.val * 32 + j.val, by omega⟩

/-- The chunk as the matrix of patches. -/
def patches (v : S32x3x8x256.Idx → α) : S1024x192.Idx → α :=
  shapeCast S1024x192
    (transpose S32x32x24x8 [0, 2, 1, 3]
      (shapeCast S32x24x32x8 (shapeCast S32x24x256 v shapeCasts_S32x3x8x256_S32x24x256) shapeCasts_S32x24x256_S32x24x32x8)
      transposes_S32x24x32x8_p0_2_1_3_S32x32x24x8)
    shapeCasts_S32x32x24x8_S1024x192

/-- Row `bb * 32 + j`, column `f` of the matrix of patches is feature `f` of patch `(bb, j)`: channel `f / 64`, row
    `f / 8 % 8`, column `8 j + f % 8` of batch `bb`. -/
theorem patches_apply (v : S32x3x8x256.Idx → α) (bb j : Fin 32) (f : Fin 192) :
    patches v (ix2 (rowIx bb j) f)
      = v (ix4 bb (⟨f.val / 64, by omega⟩ : Fin 3) (⟨f.val / 8 % 8, by omega⟩ : Fin 8) (⟨8 * j.val + f.val % 8, by omega⟩ : Fin 256)) := by
  unfold patches
  refine (shapeCast_apply _ shapeCasts_S32x32x24x8_S1024x192 _
    (ix4 bb j (⟨f.val / 8, by omega⟩ : Fin 24) (⟨f.val % 8, by omega⟩ : Fin 8)) ?_).trans ?_
  · rw [Shape.rowMajor_val_four, Shape.rowMajor_val_two]
    show ((bb.val * 32 + j.val) * 24 + f.val / 8) * 8 + f.val % 8 = (bb.val * 32 + j.val) * 192 + f.val
    omega
  refine (transpose_apply [0, 2, 1, 3] _ transposes_S32x24x32x8_p0_2_1_3_S32x32x24x8 _
    (ix4 bb (⟨f.val / 8, by omega⟩ : Fin 24) j (⟨f.val % 8, by omega⟩ : Fin 8))
    (fun b => match b with | ⟨0, _⟩ => rfl | ⟨1, _⟩ => rfl | ⟨2, _⟩ => rfl | ⟨3, _⟩ => rfl)).trans ?_
  refine (shapeCast_apply _ shapeCasts_S32x24x256_S32x24x32x8 _
    (ix3 bb (⟨f.val / 8, by omega⟩ : Fin 24) (⟨8 * j.val + f.val % 8, by omega⟩ : Fin 256)) ?_).trans ?_
  · rw [Shape.rowMajor_val_three, Shape.rowMajor_val_four]
    show (bb.val * 24 + f.val / 8) * 256 + (8 * j.val + f.val % 8) = ((bb.val * 24 + f.val / 8) * 32 + j.val) * 8 + f.val % 8
    omega
  refine shapeCast_apply _ shapeCasts_S32x3x8x256_S32x24x256 _ _ ?_
  rw [Shape.rowMajor_val_four, Shape.rowMajor_val_three]
  show ((bb.val * 3 + f.val / 64) * 8 + f.val / 8 % 8) * 256 + (8 * j.val + f.val % 8)
    = (bb.val * 24 + f.val / 8) * 256 + (8 * j.val + f.val % 8)
  omega

end Layout

/-! ## The two matrix products

A `tpu.matmul` into the zero splat, read at row `ρ` and column `e`, is the sum over the one contracted axis of the
left operand's row `ρ` times the right operand's column `e`. -/

section Products

theorem lhs1_0 (i : S1024x16.Idx) (q : dot_S1024x192_S192x16_S1024x16_1_0_0_1_n_n.contr.Idx) :
    (dot_S1024x192_S192x16_S1024x16_1_0_0_1_n_n.lhsIdx i q 0).val = (i 0).val := by
  unfold DotDims.lhsIdx
  rw [dif_neg (show ¬(0 : Fin S1024x192.rank) ∈ dot_S1024x192_S192x16_S1024x16_1_0_0_1_n_n.lhsBatch by decide), dif_pos (show (0 : Fin S1024x192.rank) ∈ dot_S1024x192_S192x16_S1024x16_1_0_0_1_n_n.lhsNonContracting by decide)]
  rfl
theorem lhs1_1 (i : S1024x16.Idx) (q : dot_S1024x192_S192x16_S1024x16_1_0_0_1_n_n.contr.Idx) :
    (dot_S1024x192_S192x16_S1024x16_1_0_0_1_n_n.lhsIdx i q 1).val = (q ⟨0, by decide⟩).val :=
  dot_S1024x192_S192x16_S1024x16_1_0_0_1_n_n.lhsIdx_val_of_single rfl i q
theorem rhs1_0 (i : S1024x16.Idx) (q : dot_S1024x192_S192x16_S1024x16_1_0_0_1_n_n.contr.Idx) :
    (dot_S1024x192_S192x16_S1024x16_1_0_0_1_n_n.rhsIdx i q 0).val = (q ⟨0, by decide⟩).val :=
  dot_S1024x192_S192x16_S1024x16_1_0_0_1_n_n.rhsIdx_val_of_single rfl i q
theorem rhs1_1 (i : S1024x16.Idx) (q : dot_S1024x192_S192x16_S1024x16_1_0_0_1_n_n.contr.Idx) :
    (dot_S1024x192_S192x16_S1024x16_1_0_0_1_n_n.rhsIdx i q 1).val = (i 1).val := by
  unfold DotDims.rhsIdx
  rw [dif_neg (show ¬(1 : Fin S192x16.rank) ∈ dot_S1024x192_S192x16_S1024x16_1_0_0_1_n_n.rhsBatch by decide), dif_pos (show (1 : Fin S192x16.rank) ∈ dot_S1024x192_S192x16_S1024x16_1_0_0_1_n_n.rhsNonContracting by decide)]
  rfl

/-- The first product: patches times the encoder's weights. -/
theorem prod1_apply (P : FVec Ideal S1024x192 .f32) (W : FVec Ideal S192x16 .f32) (ρ : Fin 1024) (e : Fin 16) :
    matmul dot_S1024x192_S192x16_S1024x16_1_0_0_1_n_n none P W (constant (F := Ideal) S1024x16 .f32 0x00000000#32) (ix2 ρ e)
      = ∑ f : Fin 192, P (ix2 ρ f) * W (ix2 f e) := by
  refine (Ideal.matmul_constant_zero_apply dot_S1024x192_S192x16_S1024x16_1_0_0_1_n_n none P W (ix2 ρ e)).trans ?_
  rw [← Equiv.sum_comp (contrEquiv1 dot_S1024x192_S192x16_S1024x16_1_0_0_1_n_n 192 rfl rfl).symm]
  refine Finset.sum_congr rfl fun k _ => ?_
  have hk := contrEquiv1_symm_val dot_S1024x192_S192x16_S1024x16_1_0_0_1_n_n 192 rfl rfl k
  have el : dot_S1024x192_S192x16_S1024x16_1_0_0_1_n_n.lhsIdx (ix2 ρ e) ((contrEquiv1 dot_S1024x192_S192x16_S1024x16_1_0_0_1_n_n 192 rfl rfl).symm k) = ix2 ρ k := funext fun a => Fin.ext (by
    match a with
    | ⟨0, _⟩ => exact lhs1_0 _ _
    | ⟨1, _⟩ => exact (lhs1_1 _ _).trans hk)
  have er : dot_S1024x192_S192x16_S1024x16_1_0_0_1_n_n.rhsIdx (ix2 ρ e) ((contrEquiv1 dot_S1024x192_S192x16_S1024x16_1_0_0_1_n_n 192 rfl rfl).symm k) = ix2 k e := funext fun a => Fin.ext (by
    match a with
    | ⟨0, _⟩ => exact (rhs1_0 _ _).trans hk
    | ⟨1, _⟩ => exact rhs1_1 _ _)
  rw [el, er]

theorem lhs2_0 (i : S1024x192.Idx) (q : dot_S1024x16_S16x192_S1024x192_1_0_0_1_n_n.contr.Idx) :
    (dot_S1024x16_S16x192_S1024x192_1_0_0_1_n_n.lhsIdx i q 0).val = (i 0).val := by
  unfold DotDims.lhsIdx
  rw [dif_neg (show ¬(0 : Fin S1024x16.rank) ∈ dot_S1024x16_S16x192_S1024x192_1_0_0_1_n_n.lhsBatch by decide), dif_pos (show (0 : Fin S1024x16.rank) ∈ dot_S1024x16_S16x192_S1024x192_1_0_0_1_n_n.lhsNonContracting by decide)]
  rfl
theorem lhs2_1 (i : S1024x192.Idx) (q : dot_S1024x16_S16x192_S1024x192_1_0_0_1_n_n.contr.Idx) :
    (dot_S1024x16_S16x192_S1024x192_1_0_0_1_n_n.lhsIdx i q 1).val = (q ⟨0, by decide⟩).val :=
  dot_S1024x16_S16x192_S1024x192_1_0_0_1_n_n.lhsIdx_val_of_single rfl i q
theorem rhs2_0 (i : S1024x192.Idx) (q : dot_S1024x16_S16x192_S1024x192_1_0_0_1_n_n.contr.Idx) :
    (dot_S1024x16_S16x192_S1024x192_1_0_0_1_n_n.rhsIdx i q 0).val = (q ⟨0, by decide⟩).val :=
  dot_S1024x16_S16x192_S1024x192_1_0_0_1_n_n.rhsIdx_val_of_single rfl i q
theorem rhs2_1 (i : S1024x192.Idx) (q : dot_S1024x16_S16x192_S1024x192_1_0_0_1_n_n.contr.Idx) :
    (dot_S1024x16_S16x192_S1024x192_1_0_0_1_n_n.rhsIdx i q 1).val = (i 1).val := by
  unfold DotDims.rhsIdx
  rw [dif_neg (show ¬(1 : Fin S16x192.rank) ∈ dot_S1024x16_S16x192_S1024x192_1_0_0_1_n_n.rhsBatch by decide), dif_pos (show (1 : Fin S16x192.rank) ∈ dot_S1024x16_S16x192_S1024x192_1_0_0_1_n_n.rhsNonContracting by decide)]
  rfl

/-- The second product: hidden units times the decoder's weights. -/
theorem prod2_apply (H : FVec Ideal S1024x16 .f32) (W : FVec Ideal S16x192 .f32) (ρ : Fin 1024) (f : Fin 192) :
    matmul dot_S1024x16_S16x192_S1024x192_1_0_0_1_n_n none H W (constant (F := Ideal) S1024x192 .f32 0x00000000#32) (ix2 ρ f)
      = ∑ e : Fin 16, H (ix2 ρ e) * W (ix2 e f) := by
  refine (Ideal.matmul_constant_zero_apply dot_S1024x16_S16x192_S1024x192_1_0_0_1_n_n none H W (ix2 ρ f)).trans ?_
  rw [← Equiv.sum_comp (contrEquiv1 dot_S1024x16_S16x192_S1024x192_1_0_0_1_n_n 16 rfl rfl).symm]
  refine Finset.sum_congr rfl fun k _ => ?_
  have hk := contrEquiv1_symm_val dot_S1024x16_S16x192_S1024x192_1_0_0_1_n_n 16 rfl rfl k
  have el : dot_S1024x16_S16x192_S1024x192_1_0_0_1_n_n.lhsIdx (ix2 ρ f) ((contrEquiv1 dot_S1024x16_S16x192_S1024x192_1_0_0_1_n_n 16 rfl rfl).symm k) = ix2 ρ k := funext fun a => Fin.ext (by
    match a with
    | ⟨0, _⟩ => exact lhs2_0 _ _
    | ⟨1, _⟩ => exact (lhs2_1 _ _).trans hk)
  have er : dot_S1024x16_S16x192_S1024x192_1_0_0_1_n_n.rhsIdx (ix2 ρ f) ((contrEquiv1 dot_S1024x16_S16x192_S1024x192_1_0_0_1_n_n 16 rfl rfl).symm k) = ix2 k f := funext fun a => Fin.ext (by
    match a with
    | ⟨0, _⟩ => exact (rhs2_0 _ _).trans hk
    | ⟨1, _⟩ => exact rhs2_1 _ _)
  rw [el, er]

end Products

/-! ## The two layers

Each layer is its product, plus the bias row broadcast over the 1024 rows, floored at zero. -/

section Layers

/-- The hidden layer on the whole matrix of patches. -/
def hiddenM (P : FVec Ideal S1024x192 .f32) (v0 : FVec Ideal S192x16 .f32) (v2 : FVec Ideal S1x16 .f32) : FVec Ideal S1024x16 .f32 :=
  maximumf
    (addf
      (matmul dot_S1024x192_S192x16_S1024x16_1_0_0_1_n_n none P (shapeCast S192x16 v0 shapeCasts_S192x16_S192x16)
        (constant S1024x16 .f32 0x00000000#32))
      (broadcastTo S1024x16 (shapeCast S1x16 v2 shapeCasts_S1x16_S1x16) broadcasts_S1x16_S1024x16))
    (broadcast S1024x16 (Scalar.ofBits .f32 0x00000000#32))

theorem hiddenM_apply (P : FVec Ideal S1024x192 .f32) (v0 : FVec Ideal S192x16 .f32) (v2 : FVec Ideal S1x16 .f32) (ρ : Fin 1024) (e : Fin 16) :
    hiddenM P v0 v2 (ix2 ρ e)
      = hidden (fun e f => v0 (ix2 f e)) (fun e => v2 (ix2 (0 : Fin 1) e)) (fun f => P (ix2 ρ f)) e := by
  unfold hiddenM PatchSpec.hidden
  rw [shapeCast_self, shapeCast_self, maximumf_apply, addf_apply, broadcast_apply, prod1_apply, broadcastTo_1b_ab_apply]
  rfl

/-- The output layer on the whole matrix of hidden units. -/
def decodedM (H : FVec Ideal S1024x16 .f32) (v4 : FVec Ideal S16x192 .f32) (v6 : FVec Ideal S1x192 .f32) : FVec Ideal S1024x192 .f32 :=
  maximumf
    (addf
      (matmul dot_S1024x16_S16x192_S1024x192_1_0_0_1_n_n none H (shapeCast S16x192 v4 shapeCasts_S16x192_S16x192)
        (constant S1024x192 .f32 0x00000000#32))
      (broadcastTo S1024x192 (shapeCast S1x192 v6 shapeCasts_S1x192_S1x192) broadcasts_S1x192_S1024x192))
    (broadcast S1024x192 (Scalar.ofBits .f32 0x00000000#32))

theorem decodedM_apply (H : FVec Ideal S1024x16 .f32) (v4 : FVec Ideal S16x192 .f32) (v6 : FVec Ideal S1x192 .f32) (ρ : Fin 1024) (f : Fin 192) :
    decodedM H v4 v6 (ix2 ρ f)
      = decoded (fun f e => v4 (ix2 e f)) (fun f => v6 (ix2 (0 : Fin 1) f)) (fun e => H (ix2 ρ e)) f := by
  unfold decodedM PatchSpec.decoded
  rw [shapeCast_self, shapeCast_self, maximumf_apply, addf_apply, broadcast_apply, prod2_apply, broadcastTo_1b_ab_apply]
  rfl

end Layers

end Head

open Head

/-- Row `bb * 32 + j` of the matrix of patches is patch `(bb, j)` of the chunk. -/
theorem patchMat_apply (v14 : Vec Ideal S32x3x8x256 .f32) (bb j : Fin 32) (f : Fin 192) :
    patchMat (F := Ideal) v14 (ix2 (⟨bb.val * 32 + j.val, by omega⟩ : Fin 1024) f) = chunkPatch v14 bb j f :=
  patches_apply v14 bb j f

/-- Entry `(ρ, f)` of the two layers' result is output `f` of the two layers applied to row `ρ`. -/
theorem layers_apply (v0 : Vec Ideal S192x16 .f32) (v2 : Vec Ideal S1x16 .f32) (v4 : Vec Ideal S16x192 .f32) (v6 : Vec Ideal S1x192 .f32)
    (P : FVec Ideal S1024x192 .f32) (ρ : Fin 1024) (f : Fin 192) :
    layers (F := Ideal) v0 v2 v4 v6 P (ix2 ρ f)
      = decoded (fun f e => v4 (ix2 e f)) (fun f => v6 (ix2 (0 : Fin 1) f))
          (PatchSpec.hidden (fun e f => v0 (ix2 f e)) (fun e => v2 (ix2 (0 : Fin 1) e)) (fun g => P (ix2 ρ g))) f := by
  show decodedM (hiddenM P v0 v2) v4 v6 (ix2 ρ f) = _
  refine (decodedM_apply (hiddenM P v0 v2) v4 v6 ρ f).trans ?_
  exact congrArg (fun h => decoded (fun f e => v4 (ix2 e f)) (fun f => v6 (ix2 (0 : Fin 1) f)) h f)
    (funext fun e => hiddenM_apply P v0 v2 ρ e)

theorem pay_apply (v0 : Vec Ideal S192x16 .f32) (v2 : Vec Ideal S1x16 .f32) (v4 : Vec Ideal S16x192 .f32) (v6 : Vec Ideal S1x192 .f32)
    (v14 : Vec Ideal S32x3x8x256 .f32) (bb : Fin 32) (c : Fin 3) (r : Fin 8) (w : Fin 256) :
    k0_pay1 (F := Ideal) v0 v2 v4 v6 v14 (ix4 bb c r w)
      = row (fun e f => v0 (ix2 f e)) (fun e => v2 (ix2 (0 : Fin 1) e)) (fun f e => v4 (ix2 e f)) (fun f => v6 (ix2 (0 : Fin 1) f))
          (chunkPatch v14 bb (blkOf w)) (featIn c r w) := by
  rw [pay_split, unpatchMat_apply, softmaxMul_apply]
  unfold row
  refine congrArg (fun o => attend o (featIn c r w)) (funext fun g => ?_)
  refine (layers_apply v0 v2 v4 v6 (patchMat v14) _ g).trans ?_
  refine congrArg (fun p => decoded (fun f e => v4 (ix2 e f)) (fun f => v6 (ix2 (0 : Fin 1) f))
    (PatchSpec.hidden (fun e f => v0 (ix2 f e)) (fun e => v2 (ix2 (0 : Fin 1) e)) p) g) (funext fun h => ?_)
  exact patchMat_apply v14 bb (blkOf w) h

end Cert.KernelIdeal.Payload

end
-- ==== Proof.OutRow.lean ====
/-
  What one grid point leaves in the output block, read at one index: position (b, c, r, w) of the [128, 3, 8, 256]
  block holds the weighted output `featIn c r w` of the patch (b, w / 8) of the point's input block. The body's
  loop takes the batches 32 at a time; trip b / 32 is the one that writes batch b.
-/
import proofs.«164859_j85478439125884_2_alg».proof.Proof.Gen.KernelIdeal.Frame
import proofs.«164859_j85478439125884_2_alg».proof.Proof.Payload
import proofs.«164859_j85478439125884_2_alg».proof.Proof.PatchSpec
import Idealize.ShloMosaic.Lib.Pipeline.Value

noncomputable section

namespace Cert.KernelIdeal.OutRow

open Cert.KernelIdeal Cert.KernelIdeal.Gen Idealize.ShloMosaic Idealize.ShloMosaic.TcCoe Idealize.ShloMosaic.ValueIdx Cert.PatchSpec

section
variable {F : FTy → Type} [FloatOps F]

theorem zero2 : (![0, 0] : Fin 2 → Nat) = fun _ => 0 :=
  funext fun a => by match a with | ⟨0, _⟩ => rfl | ⟨1, _⟩ => rfl

/-- The pieces the body's run ends with are the loop's: the four weight and bias blocks are loaded whole before
    the loop, the input block is what the trips read. -/
theorem run_pieces (c : Dev nD) (i : grid0.Coords) (arg1 : Memref sig .tc .vmem S128x3x8x256 .f32) (harg1 : arg1.IsWhole) (arg2 : Memref sig .tc .vmem S192x16 .f32) (harg2 : arg2.IsWhole) (arg3 : Memref sig .tc .vmem S1x16 .f32) (harg3 : arg3.IsWhole) (arg4 : Memref sig .tc .vmem S16x192 .f32) (harg4 : arg4.IsWhole) (arg5 : Memref sig .tc .vmem S1x192 .f32) (harg5 : arg5.IsWhole) (arg6 : Memref sig .tc .vmem S128x3x8x256 .f32) (harg6 : arg6.IsWhole) (x0 : Vec F S128x3x8x256 .f32) (x1 : Vec F S192x16 .f32) (x2 : Vec F S1x16 .f32) (x3 : Vec F S16x192 .f32) (x4 : Vec F S1x192 .f32) :
    (kernelRun0_A (F := F) c i arg1 harg1 arg2 harg2 arg3 harg3 arg4 harg4 arg5 harg5 arg6 harg6 x0 x1 x2 x3 x4).1
      = pb_k0_t1 (F := F) Variants.none c none i arg1 harg1 arg2 harg2 arg3 harg3 arg4 harg4 arg5 harg5 arg6 harg6 x1 x2 x3 x4 (harg1.unread x0) k0_t1_loop.trips := by
  unfold kernelRun0_A
  dsimp only
  simp only [View.readAt_eq_ld, Memref.IsWhole.read_unread, View.ld_unit_zero (S := S192x16) zero2, View.ld_unit_zero (S := S1x16) zero2,
    View.ld_unit_zero (S := S16x192) zero2, View.ld_unit_zero (S := S1x192) zero2]

/-- One trip stores one piece: at the trip's 32 batches, the body's arithmetic of the 32 batches it loaded there. -/
theorem trip_piece (c : Dev nD) (i : grid0.Coords) (arg1 : Memref sig .tc .vmem S128x3x8x256 .f32) (harg1 : arg1.IsWhole) (arg2 : Memref sig .tc .vmem S192x16 .f32) (harg2 : arg2.IsWhole) (arg3 : Memref sig .tc .vmem S1x16 .f32) (harg3 : arg3.IsWhole) (arg4 : Memref sig .tc .vmem S16x192 .f32) (harg4 : arg4.IsWhole) (arg5 : Memref sig .tc .vmem S1x192 .f32) (harg5 : arg5.IsWhole) (arg6 : Memref sig .tc .vmem S128x3x8x256 .f32) (harg6 : arg6.IsWhole) (v0 : Vec F S192x16 .f32) (v2 : Vec F S1x16 .f32) (v4 : Vec F S16x192 .f32) (v6 : Vec F S1x192 .f32)
    (X : BufTy.Contents (Elt F) arg1.view.ty) (k : Fin k0_t1_loop.trips) :
    tripL_k0_t1 (F := F) Variants.none c none i arg1 harg1 arg2 harg2 arg3 harg3 arg4 harg4 arg5 harg5 arg6 harg6 v0 v2 v4 v6 X k
      = [⟨Rect.unit (s := S128x3x8x256) (k0_off1 k) S32x3x8x256.size (k0_off1_inb k),
          k0_pay1 v0 v2 v4 v6 (View.readAt (Elt F) arg1.view (Rect.unit (s := S128x3x8x256) (k0_off1 k) S32x3x8x256.size (k0_off1_inb k)).toLoadRect X)⟩] := by
  unfold tripL_k0_t1 trip_k0_t1
  rfl

/-- Every piece written before trip `n` is some trip's piece. -/
theorem mem_pieces (c : Dev nD) (i : grid0.Coords) (arg1 : Memref sig .tc .vmem S128x3x8x256 .f32) (harg1 : arg1.IsWhole) (arg2 : Memref sig .tc .vmem S192x16 .f32) (harg2 : arg2.IsWhole) (arg3 : Memref sig .tc .vmem S1x16 .f32) (harg3 : arg3.IsWhole) (arg4 : Memref sig .tc .vmem S16x192 .f32) (harg4 : arg4.IsWhole) (arg5 : Memref sig .tc .vmem S1x192 .f32) (harg5 : arg5.IsWhole) (arg6 : Memref sig .tc .vmem S128x3x8x256 .f32) (harg6 : arg6.IsWhole) (v0 : Vec F S192x16 .f32) (v2 : Vec F S1x16 .f32) (v4 : Vec F S16x192 .f32) (v6 : Vec F S1x192 .f32)
    (X : BufTy.Contents (Elt F) arg1.view.ty) :
    ∀ (n : ℕ) (p : View.Piece (Elt F) S128x3x8x256 .f32),
      p ∈ pb_k0_t1 (F := F) Variants.none c none i arg1 harg1 arg2 harg2 arg3 harg3 arg4 harg4 arg5 harg5 arg6 harg6 v0 v2 v4 v6 X n →
      ∃ k : Fin k0_t1_loop.trips, p ∈ tripL_k0_t1 (F := F) Variants.none c none i arg1 harg1 arg2 harg2 arg3 harg3 arg4 harg4 arg5 harg5 arg6 harg6 v0 v2 v4 v6 X k
  | 0, p, h => by rw [pb_k0_t1.eq_1] at h; exact absurd h List.not_mem_nil
  | n + 1, p, h => by
    rw [pb_k0_t1.eq_2] at h
    unfold pb_k0_t1Step at h
    by_cases hn : n < k0_t1_loop.trips
    · rw [dif_pos hn] at h
      rcases List.mem_append.mp h with h1 | h2
      · exact ⟨⟨n, hn⟩, h1⟩
      · exact mem_pieces c i arg1 harg1 arg2 harg2 arg3 harg3 arg4 harg4 arg5 harg5 arg6 harg6 v0 v2 v4 v6 X n p h2
    · rw [dif_neg hn] at h
      exact mem_pieces c i arg1 harg1 arg2 harg2 arg3 harg3 arg4 harg4 arg5 harg5 arg6 harg6 v0 v2 v4 v6 X n p h

end

theorem trips_le : k0_t1_loop.trips ≤ 4 := k0_t1_abs.2.1

/-- The rectangle a trip reads and writes, placed in the block: trip `k`'s entry (bb, c, r, w) is the block's entry
    (32·k + bb, c, r, w). -/
theorem emb_chunk (k : Fin k0_t1_loop.trips) (bb : Fin 32) (cc : Fin 3) (rr : Fin 8) (ww : Fin 256) :
    (Rect.unit (s := S128x3x8x256) (k0_off1 k) S32x3x8x256.size (k0_off1_inb k)).emb (ix4 bb cc rr ww)
      = ix4 (⟨32 * k.val + bb.val, by have := trips_le; have := k.isLt; omega⟩ : Fin 128) cc rr ww := by
  funext a
  apply Fin.ext
  rw [Rect.emb_apply]
  simp only [Rect.off_unit, Rect.stride_unit, k0_off1_eq]
  match a with
  | ⟨0, _⟩ => show 32 * k.val + 1 * bb.val = 32 * k.val + bb.val; omega
  | ⟨1, _⟩ => show 0 + 1 * cc.val = cc.val; omega
  | ⟨2, _⟩ => show 0 + 1 * rr.val = rr.val; omega
  | ⟨3, _⟩ => show 0 + 1 * ww.val = ww.val; omega

/-- The weighted outputs of a block of 8 image rows, as one function of the block index. -/
def blockRows (x0 : Vec Ideal S128x3x8x256 .f32) (x1 : Vec Ideal S192x16 .f32) (x2 : Vec Ideal S1x16 .f32) (x3 : Vec Ideal S16x192 .f32) (x4 : Vec Ideal S1x192 .f32) : S128x3x8x256.Idx → EReal := fun y =>
  row (fun e f => x1 (ix2 f e)) (fun e => x2 (ix2 (0 : Fin 1) e)) (fun f e => x3 (ix2 e f)) (fun f => x4 (ix2 (0 : Fin 1) f))
    (blockPatch x0 (y 0) (blkOf (y 3))) (featIn (y 1) (y 2) (y 3))

/-- A trip's piece is the restriction of that function to the trip's 32 batches: the chunk the trip loads is the
    block's batches 32·k … 32·k + 31, so a patch of the chunk is the patch of the block. -/
theorem piece_value (arg1 : Memref sig .tc .vmem S128x3x8x256 .f32) (harg1 : arg1.IsWhole) (x0 : Vec Ideal S128x3x8x256 .f32) (x1 : Vec Ideal S192x16 .f32) (x2 : Vec Ideal S1x16 .f32) (x3 : Vec Ideal S16x192 .f32) (x4 : Vec Ideal S1x192 .f32)
    (k : Fin k0_t1_loop.trips) (bb : Fin 32) (cc : Fin 3) (rr : Fin 8) (ww : Fin 256) :
    k0_pay1 (F := Ideal) x1 x2 x3 x4
        (View.readAt (Elt Ideal) arg1.view (Rect.unit (s := S128x3x8x256) (k0_off1 k) S32x3x8x256.size (k0_off1_inb k)).toLoadRect (harg1.unread x0))
        (ix4 bb cc rr ww)
      = blockRows x0 x1 x2 x3 x4 ((Rect.unit (s := S128x3x8x256) (k0_off1 k) S32x3x8x256.size (k0_off1_inb k)).emb (ix4 bb cc rr ww)) := by
  rw [Payload.pay_apply, View.readAt_eq_ld, Memref.IsWhole.read_unread, emb_chunk]
  unfold blockRows
  refine congrArg (fun p => row _ _ _ _ p (featIn cc rr ww)) (funext fun f => ?_)
  unfold chunkPatch blockPatch
  show x0 ((Rect.unit (s := S128x3x8x256) (k0_off1 k) S32x3x8x256.size (k0_off1_inb k)).emb (ix4 bb _ _ _)) = _
  rw [emb_chunk]

theorem out_row (c : Dev nD) (i : grid0.Coords) (arg1 : Memref sig .tc .vmem S128x3x8x256 .f32) (harg1 : arg1.IsWhole) (arg2 : Memref sig .tc .vmem S192x16 .f32) (harg2 : arg2.IsWhole) (arg3 : Memref sig .tc .vmem S1x16 .f32) (harg3 : arg3.IsWhole) (arg4 : Memref sig .tc .vmem S16x192 .f32) (harg4 : arg4.IsWhole) (arg5 : Memref sig .tc .vmem S1x192 .f32) (harg5 : arg5.IsWhole) (arg6 : Memref sig .tc .vmem S128x3x8x256 .f32) (harg6 : arg6.IsWhole)
    (x0 : Vec Ideal S128x3x8x256 .f32) (x1 : Vec Ideal S192x16 .f32) (x2 : Vec Ideal S1x16 .f32) (x3 : Vec Ideal S16x192 .f32) (x4 : Vec Ideal S1x192 .f32)
    (b : Fin 128) (ch : Fin 3) (r : Fin 8) (w : Fin 256) :
    out0_A_5 (F := Ideal) c i arg1 harg1 arg2 harg2 arg3 harg3 arg4 harg4 arg5 harg5 arg6 harg6 x0 x1 x2 x3 x4 (ix4 b ch r w)
      = row (fun e f => x1 (ix2 f e)) (fun e => x2 (ix2 (0 : Fin 1) e)) (fun f e => x3 (ix2 e f)) (fun f => x4 (ix2 (0 : Fin 1) f))
          (blockPatch x0 b (blkOf w)) (featIn ch r w) := by
  unfold out0_A_5
  rw [View.read_writes_eq_canon _ _ _ (cover0_A_5 (F := Ideal) c i arg1 harg1 arg2 harg2 arg3 harg3 arg4 harg4 arg5 harg5 arg6 harg6 x0 x1 x2 x3 x4)]
  refine (View.canon_apply_of_pieces (blockRows x0 x1 x2 x3 x4) _ ?_ (ix4 b ch r w)
    (cover0_A_5 (F := Ideal) c i arg1 harg1 arg2 harg2 arg3 harg3 arg4 harg4 arg5 harg5 arg6 harg6 x0 x1 x2 x3 x4 (ix4 b ch r w))).trans rfl
  rw [run_pieces]
  intro p hp x
  obtain ⟨k, hk⟩ := mem_pieces c i arg1 harg1 arg2 harg2 arg3 harg3 arg4 harg4 arg5 harg5 arg6 harg6 x1 x2 x3 x4 (harg1.unread x0) _ p hp
  rw [trip_piece, List.mem_singleton] at hk
  subst hk
  have hx := eq_ix4 (n0 := 32) (n1 := 3) (n2 := 8) (n3 := 256) x
  rw [hx]
  exact piece_value arg1 harg1 x0 x1 x2 x3 x4 k (x 0) (x 1) (x 2) (x 3)

end Cert.KernelIdeal.OutRow

end
-- ==== Proof.ArrayValue.lean ====
/-
  From what each grid point writes back to the whole result array.

  The grid has 32 points; point t reads rows 8·t … 8·t + 7 of the image (every batch, channel and column), the two
  weight matrices transposed and the two biases as one-row matrices, and writes rows 8·t … 8·t + 7 of the result.
  What it leaves at position (b, c, r, w) of its block is output `featIn c r w` of the patch (b, w / 8) gathered
  out of its image block. That patch is the image's patch (b, t, w / 8), and position (b, c, 8·t + r, w) of the
  image is feature `featIn c r w` of that patch, so every block is the matching block of the one function `G` of
  the five arguments. Image row h lies in the block of point h / 8, so the 32 blocks cover the result array, which
  therefore ends holding `G`.
-/
import proofs.«164859_j85478439125884_2_alg».proof.Proof.Gen.KernelIdeal.Value
import proofs.«164859_j85478439125884_2_alg».proof.Proof.OutRow
import proofs.«164859_j85478439125884_2_alg».proof.Proof.PatchSpec
import Idealize.ShloMosaic.Lib.Pipeline.Value
import Idealize.ShloMosaic.Lib.StableHlo.Run
import Idealize.ShloMosaic.Lib.ValueIdx

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.PatchSpec

variable (m : (ℓ : Loc nD τ sig) → Buf (Elt Ideal) ℓ) (ρ : Dev nD → PrngReg)

/-! ## What the host operations before the region leave

The two weight matrices are transposed and the two bias vectors are given a leading unit axis; each is read back
at an index as the argument at the matching index. -/

theorem encT (c : Dev nD) :
    (V m c main_v2 : S192x16.Idx → EReal) = transpose S192x16 [1, 0] (m ((c : Thread nD τ).loc main_arg1)) transposes_S16x192_S192x16_1_0 := by
  dsimp only [Gen.V, Gen.hostOps0]; after_results

theorem decT (c : Dev nD) :
    (V m c main_v3 : S16x192.Idx → EReal) = transpose S16x192 [1, 0] (m ((c : Thread nD τ).loc main_arg3)) transposes_S192x16_S16x192_1_0 := by
  dsimp only [Gen.V, Gen.hostOps0]; after_results

theorem encB (c : Dev nD) :
    (V m c main_v0 : S1x16.Idx → EReal) = shapeCast S1x16 (m ((c : Thread nD τ).loc main_arg2)) shapeCasts_S16_S1x16 := by
  dsimp only [Gen.V, Gen.hostOps0]; after_results; rfl

theorem decB (c : Dev nD) :
    (V m c main_v1 : S1x192.Idx → EReal) = shapeCast S1x192 (m ((c : Thread nD τ).loc main_arg4)) shapeCasts_S192_S1x192 := by
  dsimp only [Gen.V, Gen.hostOps0]; after_results; rfl

/-- The transposed encoder weights at (f, e) are the encoder weights at (e, f). -/
theorem encT_apply (c : Dev nD) (f : Fin 192) (e : Fin 16) :
    (V m c main_v2 : S192x16.Idx → EReal) (ix2 f e) = (m ((c : Thread nD τ).loc main_arg1) : S16x192.Idx → EReal) (ix2 e f) := by
  rw [encT]
  exact transpose_apply _ _ _ _ _ (fun b => by fin_cases b <;> rfl)

/-- The transposed decoder weights at (e, f) are the decoder weights at (f, e). -/
theorem decT_apply (c : Dev nD) (e : Fin 16) (f : Fin 192) :
    (V m c main_v3 : S16x192.Idx → EReal) (ix2 e f) = (m ((c : Thread nD τ).loc main_arg3) : S192x16.Idx → EReal) (ix2 f e) := by
  rw [decT]
  exact transpose_apply _ _ _ _ _ (fun b => by fin_cases b <;> rfl)

/-- The encoder bias as a one-row matrix, at (0, e), is the bias at e. -/
theorem encB_apply (c : Dev nD) (e : Fin 16) :
    (V m c main_v0 : S1x16.Idx → EReal) (ix2 (0 : Fin 1) e) = (m ((c : Thread nD τ).loc main_arg2) : S16.Idx → EReal) (ix1 e) := by
  rw [encB]
  refine shapeCast_apply _ _ _ _ ?_
  show (S16.rowMajor (ix1 e)).val = (S1x16.rowMajor (ix2 (0 : Fin 1) e)).val
  rw [Shape.rowMajor_val_one, Shape.rowMajor_val_two]
  show e.val = 0 * 16 + e.val
  omega

/-- The decoder bias as a one-row matrix, at (0, f), is the bias at f. -/
theorem decB_apply (c : Dev nD) (f : Fin 192) :
    (V m c main_v1 : S1x192.Idx → EReal) (ix2 (0 : Fin 1) f) = (m ((c : Thread nD τ).loc main_arg4) : S192.Idx → EReal) (ix1 f) := by
  rw [decB]
  refine shapeCast_apply _ _ _ _ ?_
  show (S192.rowMajor (ix1 f)).val = (S1x192.rowMajor (ix2 (0 : Fin 1) f)).val
  rw [Shape.rowMajor_val_one, Shape.rowMajor_val_two]
  show f.val = 0 * 192 + f.val
  omega

/-! ## The blocks a grid point reads

Grid point `t` reads rows 8·t … 8·t + 7 of the image (all batches, channels and columns) and the whole of each
weight matrix and bias row. -/

theorem point_lt (t : Fin cfg0.N) : t.val < 32 := lt_of_lt_of_eq t.isLt N_0

/-- The block indices of the six windows at point `t`, decided over the grid: the image's and the result's block is
    number `t` along the rows, every other window's block is the whole array. -/
theorem block_indices : ∀ t : Fin cfg0.N,
    (win0_0.index t (0 : Fin 4) = 0 ∧ win0_0.index t (1 : Fin 4) = 0 ∧ win0_0.index t (2 : Fin 4) = t.val ∧ win0_0.index t (3 : Fin 4) = 0)
    ∧ (win0_5.index t (0 : Fin 4) = 0 ∧ win0_5.index t (1 : Fin 4) = 0 ∧ win0_5.index t (2 : Fin 4) = t.val ∧ win0_5.index t (3 : Fin 4) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

/-- The image block of point `t` at (b, c, r, w) is the image at (b, c, 8·t + r, w). -/
theorem image_block (c : Dev nD) (t : Fin cfg0.N) (b : Fin 128) (ch : Fin 3) (r : Fin 8) (w : Fin 256) :
    (iblk m c 0 t : Vec Ideal S128x3x8x256 .f32) (ix4 b ch r w)
      = (m ((c : Thread nD τ).loc main_arg0) : S128x3x256x256.Idx → EReal)
          (ix4 b ch (⟨8 * t.val + r.val, by have := point_lt t; omega⟩ : Fin 256) w) := by
  obtain ⟨⟨e0, e1, e2, e3⟩, -⟩ := block_indices t
  unfold iblk
  rw [View.read_apply]
  show V m c main_arg0 _ = _
  rw [V_main_arg0]
  congr 1
  funext a
  apply Fin.ext
  match a with
  | ⟨0, _⟩ => show win0_0.index t (0 : Fin 4) * 128 + 1 * b.val = b.val; rw [e0]; omega
  | ⟨1, _⟩ => show win0_0.index t (1 : Fin 4) * 3 + 1 * ch.val = ch.val; rw [e1]; omega
  | ⟨2, _⟩ => show win0_0.index t (2 : Fin 4) * 8 + 1 * r.val = 8 * t.val + r.val; rw [e2]; omega
  | ⟨3, _⟩ => show win0_0.index t (3 : Fin 4) * 256 + 1 * w.val = w.val; rw [e3]; omega

/-- The transposed encoder weights are read whole. -/
theorem encW_block (c : Dev nD) (t : Fin cfg0.N) (y : S192x16.Idx) :
    (iblk m c 1 t : Vec Ideal S192x16 .f32) y = (V m c main_v2 : S192x16.Idx → EReal) y := by
  obtain ⟨-, -, ⟨e0, e1⟩, -⟩ := block_indices t
  unfold iblk
  rw [View.read_apply]
  show V m c main_v2 _ = _
  congr 1
  funext a
  apply Fin.ext
  match a with
  | ⟨0, _⟩ => show win0_1.index t (0 : Fin 2) * 192 + 1 * (y 0).val = (y 0).val; rw [e0]; omega
  | ⟨1, _⟩ => show win0_1.index t (1 : Fin 2) * 16 + 1 * (y 1).val = (y 1).val; rw [e1]; omega

/-- The encoder bias row is read whole. -/
theorem encB_block (c : Dev nD) (t : Fin cfg0.N) (y : S1x16.Idx) :
    (iblk m c 2 t : Vec Ideal S1x16 .f32) y = (V m c main_v0 : S1x16.Idx → EReal) y := by
  obtain ⟨-, -, -, ⟨e0, e1⟩, -⟩ := block_indices t
  unfold iblk
  rw [View.read_apply]
  show V m c main_v0 _ = _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 16 + 1 * (y 1).val = (y 1).val; rw [e1]; omega

/-- The transposed decoder weights are read whole. -/
theorem decW_block (c : Dev nD) (t : Fin cfg0.N) (y : S16x192.Idx) :
    (iblk m c 3 t : Vec Ideal S16x192 .f32) y = (V m c main_v3 : S16x192.Idx → EReal) y := by
  obtain ⟨-, -, -, -, ⟨e0, e1⟩, -⟩ := block_indices t
  unfold iblk
  rw [View.read_apply]
  show V m c main_v3 _ = _
  congr 1
  funext a
  apply Fin.ext
  match a with
  | ⟨0, _⟩ => show win0_3.index t (0 : Fin 2) * 16 + 1 * (y 0).val = (y 0).val; rw [e0]; omega
  | ⟨1, _⟩ => show win0_3.index t (1 : Fin 2) * 192 + 1 * (y 1).val = (y 1).val; rw [e1]; omega

/-- The decoder bias row is read whole. -/
theorem decB_block (c : Dev nD) (t : Fin cfg0.N) (y : S1x192.Idx) :
    (iblk m c 4 t : Vec Ideal S1x192 .f32) y = (V m c main_v1 : S1x192.Idx → EReal) y := by
  obtain ⟨-, -, -, -, -, e0, e1⟩ := block_indices t
  unfold iblk
  rw [View.read_apply]
  show V m c main_v1 _ = _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 192 + 1 * (y 1).val = (y 1).val; rw [e1]; omega

/-! ## What a grid point writes back

Point `t` leaves, at position (b, c, r, w) of its block, output `featIn c r w` of the patch (b, w / 8) of its image
block; that patch is the image's patch (b, t, w / 8), and position (b, c, 8·t + r, w) of the image is feature
`featIn c r w` of it: the block is the block of the one function `G` of the five arguments. -/

/-- `row` at equal weights, biases, features and output index. -/
theorem row_congr {we we' : Fin 16 → Fin 192 → EReal} {be be' : Fin 16 → EReal} {wd wd' : Fin 192 → Fin 16 → EReal}
    {bd bd' : Fin 192 → EReal} {p p' : Fin 192 → EReal} {f f' : Fin 192}
    (hwe : ∀ e f, we e f = we' e f) (hbe : ∀ e, be e = be' e) (hwd : ∀ f e, wd f e = wd' f e) (hbd : ∀ f, bd f = bd' f)
    (hp : ∀ f, p f = p' f) (hf : f = f') : row we be wd bd p f = row we' be' wd' bd' p' f' := by
  obtain rfl : we = we' := funext fun e => funext fun f => hwe e f
  obtain rfl : be = be' := funext hbe
  obtain rfl : wd = wd' := funext fun f => funext fun e => hwd f e
  obtain rfl : bd = bd' := funext hbd
  obtain rfl : p = p' := funext hp
  rw [hf]

/-- The patch gathered out of point `t`'s image block is the image's patch in patch row `t`. -/
theorem blockPatch_image_block (c : Dev nD) (t : Fin cfg0.N) (b : Fin 128) (i : Fin 32) (hi : i.val = t.val) (j : Fin 32) (f : Fin 192) :
    blockPatch (iblk m c 0 t : Vec Ideal S128x3x8x256 .f32) b j f
      = patch (m ((c : Thread nD τ).loc main_arg0)) b i j f := by
  unfold blockPatch patch
  refine (image_block m c t b _ _ _).trans (congrArg (m ((c : Thread nD τ).loc main_arg0) : S128x3x256x256.Idx → EReal) ?_)
  funext a
  apply Fin.ext
  match a with
  | ⟨0, _⟩ => rfl
  | ⟨1, _⟩ => rfl
  | ⟨2, _⟩ => show 8 * t.val + f.val / 8 % 8 = 8 * i.val + f.val / 8 % 8; rw [hi]
  | ⟨3, _⟩ => rfl

/-- WHAT POINT `t` WRITES BACK is block `t` of `G` of the five arguments. -/
theorem flushed_eq (c : Dev nD) (t : Fin cfg0.N) :
    (dats m 0 c).flushed 5 t = ((cfg0.win 5).blk t).view.read (Elt Ideal)
      (G (m ((c : Thread nD τ).loc main_arg0)) (m ((c : Thread nD τ).loc main_arg1)) (m ((c : Thread nD τ).loc main_arg2))
        (m ((c : Thread nD τ).loc main_arg3)) (m ((c : Thread nD τ).loc main_arg4))) := by
  rw [Value.flushed5_A]
  refine funext fun (y : S128x3x8x256.Idx) => ?_
  obtain ⟨b, ch, r, w, rfl⟩ : ∃ b ch r w, y = ix4 b ch r w := ⟨y 0, y 1, y 2, y 3, eq_ix4 y⟩
  have ht := point_lt t
  obtain ⟨-, ⟨e0, e1, e2, e3⟩, -⟩ := block_indices t
  have hemb : ((cfg0.win 5).blk t).view.emb (ix4 b ch r w)
      = (ix4 b ch (⟨8 * t.val + r.val, by omega⟩ : Fin 256) w : S128x3x256x256.Idx) := by
    funext a
    apply Fin.ext
    match a with
    | ⟨0, _⟩ => show win0_5.index t (0 : Fin 4) * 128 + 1 * b.val = b.val; rw [e0]; omega
    | ⟨1, _⟩ => show win0_5.index t (1 : Fin 4) * 3 + 1 * ch.val = ch.val; rw [e1]; omega
    | ⟨2, _⟩ => show win0_5.index t (2 : Fin 4) * 8 + 1 * r.val = 8 * t.val + r.val; rw [e2]; omega
    | ⟨3, _⟩ => show win0_5.index t (3 : Fin 4) * 256 + 1 * w.val = w.val; rw [e3]; omega
  show out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) (ix4 b ch r w)
    = G (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb (ix4 b ch r w))
  rw [hemb, G_ix4]
  unfold Gc
  refine (Cert.KernelIdeal.OutRow.out_row c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) b ch r w).trans ?_
  refine row_congr (fun e f => ?_) (fun e => ?_) (fun f e => ?_) (fun f => ?_) (fun f => ?_) ?_
  · exact (encW_block m c t _).trans (encT_apply m c f e)
  · exact (encB_block m c t _).trans (encB_apply m c e)
  · exact (decW_block m c t _).trans (decT_apply m c e f)
  · exact (decB_block m c t _).trans (decB_apply m c f)
  · exact blockPatch_image_block m c t b _ (by show (8 * t.val + r.val) / 8 = t.val; omega) _ f
  · apply Fin.ext
    show ch.val * 64 + r.val * 8 + w.val % 8 = ch.val * 64 + (8 * t.val + r.val) % 8 * 8 + w.val % 8
    omega

/-! ## From the blocks to the array -/

/-- An index of the result array is in point `t`'s block iff each coordinate is in the block's range on its axis. -/
theorem mem_blk (t : Fin cfg0.N) (i : S128x3x256x256.Idx) :
    i ∈ ((cfg0.win 5).blk t).view.set ↔ ∀ a : Fin 4, win0_5.index t a * S128x3x8x256.size a ≤ (i a).val ∧ (i a).val < win0_5.index t a * S128x3x8x256.size a + S128x3x8x256.size a := by
  show i ∈ ((View.whole main_v4).slice (win0_5.rect t)).set ↔ _
  rw [View.set_slice_whole, Rect.mem_set_unit]
  exact Iff.rfl

/-- Image row `h` lies in the block of point `h / 8`: the 32 blocks cover the result array. -/
theorem cover (i : S128x3x256x256.Idx) :
    ∃ t : Fin cfg0.N, (cfg0.win 5).flush t = true ∧ i ∈ ((cfg0.win 5).blk t).view.set := by
  have h0 : (i 0).val < 128 := (i 0).isLt
  have h1 : (i 1).val < 3 := (i 1).isLt
  have h2 : (i 2).val < 256 := (i 2).isLt
  have h3 : (i 3).val < 256 := (i 3).isLt
  have hN : (i 2).val / 8 < cfg0.N := by rw [show cfg0.N = 32 from N_0]; omega
  refine ⟨⟨(i 2).val / 8, hN⟩, flush0_5 _, ?_⟩
  obtain ⟨-, ⟨e0, e1, e2, e3⟩, -⟩ := block_indices ⟨(i 2).val / 8, hN⟩
  rw [mem_blk]
  intro a
  match a with
  | ⟨0, _⟩ => show win0_5.index ⟨(i 2).val / 8, hN⟩ (0 : Fin 4) * 128 ≤ (i 0).val ∧ (i 0).val < win0_5.index ⟨(i 2).val / 8, hN⟩ (0 : Fin 4) * 128 + 128; rw [e0]; omega
  | ⟨1, _⟩ => show win0_5.index ⟨(i 2).val / 8, hN⟩ (1 : Fin 4) * 3 ≤ (i 1).val ∧ (i 1).val < win0_5.index ⟨(i 2).val / 8, hN⟩ (1 : Fin 4) * 3 + 3; rw [e1]; omega
  | ⟨2, _⟩ => show win0_5.index ⟨(i 2).val / 8, hN⟩ (2 : Fin 4) * 8 ≤ (i 2).val ∧ (i 2).val < win0_5.index ⟨(i 2).val / 8, hN⟩ (2 : Fin 4) * 8 + 8; rw [e2]; show (i 2).val / 8 * 8 ≤ (i 2).val ∧ (i 2).val < (i 2).val / 8 * 8 + 8; omega
  | ⟨3, _⟩ => show win0_5.index ⟨(i 2).val / 8, hN⟩ (3 : Fin 4) * 256 ≤ (i 3).val ∧ (i 3).val < win0_5.index ⟨(i 2).val / 8, hN⟩ (3 : Fin 4) * 256 + 256; rw [e3]; omega

/-- THE RESULT ARRAY after the run is `G` of the five arguments. -/
theorem final (c : Dev nD) :
    (dats m 0 c).arrAt 5 cfg0.N = G (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed_eq m c t) cover

/-! ## The run, read -/

/-- The kernel's run: the result array ends at `G` of the five arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4) = Cert.PatchSpec.G (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrayValue

end
-- ==== Proof.RefValue.lean ====
/-
  The reference program computes the patch function of PatchSpec.

  The reference cuts the image [128, 3, 256, 256] into 8 × 8 patches by a reshape to rank 6, a transposition and a
  reshape to [128, 32, 32, 192]; applies, along the last axis, two affine maps with rectifiers (contractions over
  192 and over 16 entries), a row maximum, exponentials of the differences, their row sum, a quotient and a product;
  and undoes the three layout steps. Every stage is read here at explicit coordinates (b, i, j, f):

    • a reshape keeps the row-major position, so between [.., 3, 8, 8] and [.., 192] feature f corresponds to
      (f / 64, f / 8 % 8, f % 8), and between [.., 32, 8, ..] and [.., 256, ..] row h corresponds to (h / 8, h % 8);
      both are identities of linear arithmetic with division by constants;
    • a contraction at an index is the finite sum of products over the contracted coordinate;
    • the maximum over the last axis is the fold of `max` over the 192 coordinates of that axis;
    • the row sum starts from the zero word, which denotes 0, and 0 + s = s.

  No property of the extended reals beyond 0 + s = s is used: the two sides are the same expression once the
  indices are matched.
-/
import proofs.«164859_j85478439125884_2_alg».proof.Proof.Gen.ReferenceIdeal.Read
import proofs.«164859_j85478439125884_2_alg».proof.Proof.PatchSpec
import Idealize.ShloMosaic.Lib.ValueIdxRank6
import Idealize.ShloMosaic.Lib.Pipeline.Value
import Idealize.ShloMosaic.PureOps.Reduce
import Idealize.ShloMosaic.PureOps.Ideal.Laws

noncomputable section

namespace Cert.ReferenceIdeal.RefValue

open Cert.ReferenceIdeal Cert.ReferenceIdeal.Gen Idealize.ShloMosaic Idealize.ShloMosaic.ValueIdx
open Cert.ReferenceIdeal.Read Cert.PatchSpec

/-! ## The four reshapes, read at explicit coordinates

A reshape keeps the row-major position. Each lemma names the coordinates on both sides and leaves the equality of the
two positions to linear arithmetic. -/

section Layout

variable {α : Type}

/-- Rows and columns split into (patch, position inside the patch): entry (b, c, i, r, j, s) of the split array is
    entry (b, c, 8·i + r, 8·j + s) of the image. -/
theorem split_apply (x : S128x3x256x256.Idx → α) (h : S128x3x256x256.ShapeCasts S128x3x32x8x32x8)
    (b : Fin 128) (c : Fin 3) (i : Fin 32) (r : Fin 8) (j : Fin 32) (s : Fin 8) :
    shapeCast S128x3x32x8x32x8 x h (ix6 b c i r j s)
      = x (ix4 b c (⟨8 * i.val + r.val, by omega⟩ : Fin 256) (⟨8 * j.val + s.val, by omega⟩ : Fin 256)) := by
  refine shapeCast_apply x h _ _ ?_
  rw [Shape.rowMajor_val_four, Shape.rowMajor_val_six]
  show ((b.val * 3 + c.val) * 256 + (8 * i.val + r.val)) * 256 + (8 * j.val + s.val)
     = ((((b.val * 3 + c.val) * 32 + i.val) * 8 + r.val) * 32 + j.val) * 8 + s.val
  omega

/-- The last three axes (channel, row, column inside the patch) flattened into one feature axis: feature f of a patch
    is its entry (f / 64, f / 8 % 8, f % 8). -/
theorem flatten_apply (y : S128x32x32x3x8x8.Idx → α) (h : S128x32x32x3x8x8.ShapeCasts S128x32x32x192)
    (b : Fin 128) (i j : Fin 32) (f : Fin 192) :
    shapeCast S128x32x32x192 y h (ix4 b i j f)
      = y (ix6 b i j (⟨f.val / 64, by omega⟩ : Fin 3) (⟨f.val / 8 % 8, by omega⟩ : Fin 8) (⟨f.val % 8, by omega⟩ : Fin 8)) := by
  refine shapeCast_apply y h _ _ ?_
  rw [Shape.rowMajor_val_four, Shape.rowMajor_val_six]
  show ((((b.val * 32 + i.val) * 32 + j.val) * 3 + f.val / 64) * 8 + f.val / 8 % 8) * 8 + f.val % 8
     = ((b.val * 32 + i.val) * 32 + j.val) * 192 + f.val
  omega

/-- The feature axis unfolded again: entry (c, r, s) of a patch is its feature c·64 + r·8 + s. -/
theorem unflatten_apply (y : S128x32x32x192.Idx → α) (h : S128x32x32x192.ShapeCasts S128x32x32x3x8x8)
    (b : Fin 128) (i j : Fin 32) (c : Fin 3) (r s : Fin 8) :
    shapeCast S128x32x32x3x8x8 y h (ix6 b i j c r s)
      = y (ix4 b i j (⟨c.val * 64 + r.val * 8 + s.val, by omega⟩ : Fin 192)) := by
  refine shapeCast_apply y h _ _ ?_
  rw [Shape.rowMajor_val_four, Shape.rowMajor_val_six]
  show ((b.val * 32 + i.val) * 32 + j.val) * 192 + (c.val * 64 + r.val * 8 + s.val)
     = ((((b.val * 32 + i.val) * 32 + j.val) * 3 + c.val) * 8 + r.val) * 8 + s.val
  omega

/-- (patch, position) pairs merged back into image rows and columns: entry (b, c, h, w) of the image is entry
    (b, c, h / 8, h % 8, w / 8, w % 8) of the split array. -/
theorem merge_apply (y : S128x3x32x8x32x8.Idx → α) (h : S128x3x32x8x32x8.ShapeCasts S128x3x256x256)
    (b : Fin 128) (c : Fin 3) (hh w : Fin 256) :
    shapeCast S128x3x256x256 y h (ix4 b c hh w)
      = y (ix6 b c (⟨hh.val / 8, by omega⟩ : Fin 32) (⟨hh.val % 8, by omega⟩ : Fin 8)
            (⟨w.val / 8, by omega⟩ : Fin 32) (⟨w.val % 8, by omega⟩ : Fin 8)) := by
  refine shapeCast_apply y h _ _ ?_
  rw [Shape.rowMajor_val_four, Shape.rowMajor_val_six]
  show ((((b.val * 3 + c.val) * 32 + hh.val / 8) * 8 + hh.val % 8) * 32 + w.val / 8) * 8 + w.val % 8
     = ((b.val * 3 + c.val) * 256 + hh.val) * 256 + w.val
  omega

end Layout

/-! ## The stages' index maps at explicit coordinates

Each stage reads its operand at an index computed from the result's; at coordinates (b, i, j, …) that index is again
a tuple of the same coordinates, permuted or truncated. -/

section Indices

theorem idx_v1_ix6 (b : Fin 128) (i j : Fin 32) (c : Fin 3) (r s : Fin 8) :
    idx_main_v1 (ix6 b i j c r s) = ix6 b c i r j s :=
  funext fun a => Fin.ext (by
    match a with | ⟨0, _⟩ => rfl | ⟨1, _⟩ => rfl | ⟨2, _⟩ => rfl | ⟨3, _⟩ => rfl | ⟨4, _⟩ => rfl | ⟨5, _⟩ => rfl)

theorem idx_v26_ix6 (b : Fin 128) (c : Fin 3) (i : Fin 32) (r : Fin 8) (j : Fin 32) (s : Fin 8) :
    idx_main_v26 (ix6 b c i r j s) = ix6 b i j c r s :=
  funext fun a => Fin.ext (by
    match a with | ⟨0, _⟩ => rfl | ⟨1, _⟩ => rfl | ⟨2, _⟩ => rfl | ⟨3, _⟩ => rfl | ⟨4, _⟩ => rfl | ⟨5, _⟩ => rfl)

theorem lidx_v3_ix4 (b : Fin 128) (i j : Fin 32) (e : Fin 16) (k : Fin 192) :
    lidx_main_v3 (ix4 b i j e) k = ix4 b i j k :=
  funext fun a => Fin.ext (by match a with | ⟨0, _⟩ => rfl | ⟨1, _⟩ => rfl | ⟨2, _⟩ => rfl | ⟨3, _⟩ => rfl)

theorem ridx_v3_ix4 (b : Fin 128) (i j : Fin 32) (e : Fin 16) (k : Fin 192) :
    ridx_main_v3 (ix4 b i j e) k = ix2 e k :=
  funext fun a => Fin.ext (by match a with | ⟨0, _⟩ => rfl | ⟨1, _⟩ => rfl)

theorem lidx_v8_ix4 (b : Fin 128) (i j : Fin 32) (f : Fin 192) (k : Fin 16) :
    lidx_main_v8 (ix4 b i j f) k = ix4 b i j k :=
  funext fun a => Fin.ext (by match a with | ⟨0, _⟩ => rfl | ⟨1, _⟩ => rfl | ⟨2, _⟩ => rfl | ⟨3, _⟩ => rfl)

theorem ridx_v8_ix4 (b : Fin 128) (i j : Fin 32) (f : Fin 192) (k : Fin 16) :
    ridx_main_v8 (ix4 b i j f) k = ix2 f k :=
  funext fun a => Fin.ext (by match a with | ⟨0, _⟩ => rfl | ⟨1, _⟩ => rfl)

theorem idx_v4_v5_ix4 (b : Fin 128) (i j : Fin 32) (e : Fin 16) :
    idx_main_v4 (idx_main_v5 (ix4 b i j e)) = ix1 e :=
  funext fun a => Fin.ext (by match a with | ⟨0, _⟩ => rfl)

theorem idx_v9_v10_ix4 (b : Fin 128) (i j : Fin 32) (f : Fin 192) :
    idx_main_v9 (idx_main_v10 (ix4 b i j f)) = ix1 f :=
  funext fun a => Fin.ext (by match a with | ⟨0, _⟩ => rfl)

theorem idx_v16_v17_ix4 (b : Fin 128) (i j : Fin 32) (f : Fin 192) :
    idx_main_v16 (idx_main_v17 (ix4 b i j f)) = ix3 b i j :=
  funext fun a => Fin.ext (by match a with | ⟨0, _⟩ => rfl | ⟨1, _⟩ => rfl | ⟨2, _⟩ => rfl)

theorem idx_v21_v22_ix4 (b : Fin 128) (i j : Fin 32) (f : Fin 192) :
    idx_main_v21 (idx_main_v22 (ix4 b i j f)) = ix3 b i j :=
  funext fun a => Fin.ext (by match a with | ⟨0, _⟩ => rfl | ⟨1, _⟩ => rfl | ⟨2, _⟩ => rfl)

theorem idx_v20_ix3 (b : Fin 128) (i j : Fin 32) (k : Fin 192) :
    idx_main_v20 (ix3 b i j) k = ix4 b i j k :=
  funext fun a => Fin.ext (by match a with | ⟨0, _⟩ => rfl | ⟨1, _⟩ => rfl | ⟨2, _⟩ => rfl | ⟨3, _⟩ => rfl)

end Indices

/-! ## The stages, read at explicit coordinates -/

section Stages

variable (x0 : (⟨S128x3x256x256, .f32⟩ : BufTy).Contents (Elt Ideal)) (x1 : (⟨S16x192, .f32⟩ : BufTy).Contents (Elt Ideal))
  (x2 : (⟨S16, .f32⟩ : BufTy).Contents (Elt Ideal)) (x3 : (⟨S192x16, .f32⟩ : BufTy).Contents (Elt Ideal))
  (x4 : (⟨S192, .f32⟩ : BufTy).Contents (Elt Ideal))

/-- Split, transpose, flatten: feature f of patch (b, i, j) of the gathered array is the image entry the
    specification's `patch` names. -/
theorem v2_ix4 (b : Fin 128) (i j : Fin 32) (f : Fin 192) :
    val_main_v2 (F := Ideal) x0 (ix4 b i j f) = patch x0 b i j f := by
  unfold val_main_v2
  refine (flatten_apply (val_main_v1 (F := Ideal) x0) _ b i j f).trans ?_
  refine (val_main_v1_apply x0 _).trans ?_
  rw [idx_v1_ix6]
  unfold val_main_v0
  exact split_apply x0 _ b _ i _ j _

/-- The first contraction, the bias and the rectifier: the hidden layer of the patch. -/
theorem v7_ix4 (b : Fin 128) (i j : Fin 32) (e : Fin 16) :
    val_main_v7 (F := Ideal) x0 x1 x2 (ix4 b i j e)
      = hidden (fun e f => x1 (ix2 e f)) (fun e => x2 (ix1 e)) (patch x0 b i j) e := by
  have h3 : val_main_v3 (F := Ideal) x0 x1 (ix4 b i j e) = ∑ f : Fin 192, patch x0 b i j f * x1 (ix2 e f) := by
    rw [val_main_v3_apply]
    refine Finset.sum_congr rfl fun k _ => ?_
    rw [lidx_v3_ix4, ridx_v3_ix4, v2_ix4]
  have h5 : val_main_v5 (F := Ideal) x2 (ix4 b i j e) = x2 (ix1 e) := by
    rw [val_main_v5_apply, val_main_v4_apply, idx_v4_v5_ix4]
  have h0 : val_main_call0_v0 (F := Ideal) (ix4 b i j e) = zero := by
    rw [val_main_call0_v0_apply, val_main_call0_cst_apply]; rfl
  rw [val_main_v7_apply, val_main_v6_apply, h3, h5, h0]
  rfl

/-- The second contraction, the bias and the rectifier: the output layer of the patch. -/
theorem v12_ix4 (b : Fin 128) (i j : Fin 32) (f : Fin 192) :
    val_main_v12 (F := Ideal) x0 x1 x2 x3 x4 (ix4 b i j f)
      = decoded (fun f e => x3 (ix2 f e)) (fun f => x4 (ix1 f))
          (hidden (fun e f => x1 (ix2 e f)) (fun e => x2 (ix1 e)) (patch x0 b i j)) f := by
  have h8 : val_main_v8 (F := Ideal) x0 x1 x2 x3 (ix4 b i j f)
      = ∑ e : Fin 16, hidden (fun e f => x1 (ix2 e f)) (fun e => x2 (ix1 e)) (patch x0 b i j) e * x3 (ix2 f e) := by
    rw [val_main_v8_apply]
    refine Finset.sum_congr rfl fun k _ => ?_
    rw [lidx_v8_ix4, ridx_v8_ix4, v7_ix4]
  have h10 : val_main_v10 (F := Ideal) x4 (ix4 b i j f) = x4 (ix1 f) := by
    rw [val_main_v10_apply, val_main_v9_apply, idx_v9_v10_ix4]
  have h0 : val_main_call1_v0 (F := Ideal) (ix4 b i j f) = zero := by
    rw [val_main_call1_v0_apply, val_main_call1_cst_apply]; rfl
  rw [val_main_v12_apply, val_main_v11_apply, h8, h10, h0]
  rfl

/-- The maximum-reduction over the last axis of a [128, 32, 32, 192] array, started at minus infinity, read at
    (b, i, j): the fold of `max` over the 192 entries of that row. -/
theorem rowFold (y : FVec Ideal S128x32x32x192 .f32) (b : Fin 128) (i j : Fin 32) :
    Host.reduce (FloatOps.maximumf (F := Ideal) (φ := .f32)) y (constant (F := Ideal) S_ .f32 0xFF800000#32)
        reducesTo_S128x32x32x192_S128x32x32_d3 h_S_ (ix3 b i j)
      = (Finset.univ : Finset (Fin 192)).fold max negInf (fun f => y (ix4 b i j f)) := by
  have hR : S128x32x32x192.Reduces [3] S128x32x32 := by decide
  refine (Host.reduce_eq_fold_single (α := Ideal .f32) (FloatOps.maximumf (F := Ideal) (φ := .f32)) y _
    reducesTo_S128x32x32x192_S128x32x32_d3 hR h_S_ (ix3 b i j)).trans ?_
  have hf : (y ∘ hR.lift (ix3 b i j)) = fun f : Fin 192 => y (ix4 b i j f) :=
    funext fun k => congrArg y (funext fun a => Fin.ext (by
      match a with | ⟨0, _⟩ => rfl | ⟨1, _⟩ => rfl | ⟨2, _⟩ => rfl | ⟨3, _⟩ => rfl))
  exact congrArg (fun g => Finset.fold max negInf g (Finset.univ : Finset (Fin 192))) hf

/-- The maximum over the feature axis is the fold of `max` over the row's 192 outputs, from minus infinity. -/
theorem v13_ix3 (b : Fin 128) (i j : Fin 32) :
    val_main_v13 (F := Ideal) x0 x1 x2 x3 x4 (ix3 b i j)
      = (Finset.univ : Finset (Fin 192)).fold max negInf
          (fun f => val_main_v12 (F := Ideal) x0 x1 x2 x3 x4 (ix4 b i j f)) := by
  unfold val_main_v13 val_main_cst
  generalize val_main_v12 (F := Ideal) x0 x1 x2 x3 x4 = y
  exact rowFold y b i j

/-- … compared once more with minus infinity: the specification's row maximum. -/
theorem v15_ix3 (b : Fin 128) (i j : Fin 32) :
    val_main_v15 (F := Ideal) x0 x1 x2 x3 x4 (ix3 b i j)
      = rowMax (fun f => val_main_v12 (F := Ideal) x0 x1 x2 x3 x4 (ix4 b i j f)) := by
  have h14 : val_main_v14 (F := Ideal) (ix3 b i j) = negInf := by
    rw [val_main_v14_apply, val_main_cst_0_apply]; rfl
  rw [val_main_v15_apply, h14, v13_ix3]
  rfl

/-- Subtract the row maximum, exponentiate, divide by the row's sum, multiply by the output: the output weighted
    by its softmax weight. -/
theorem v24_ix4 (b : Fin 128) (i j : Fin 32) (f : Fin 192) :
    val_main_v24 (F := Ideal) x0 x1 x2 x3 x4 (ix4 b i j f)
      = attend (fun g => val_main_v12 (F := Ideal) x0 x1 x2 x3 x4 (ix4 b i j g)) f := by
  have h17 : ∀ g : Fin 192, val_main_v17 (F := Ideal) x0 x1 x2 x3 x4 (ix4 b i j g)
      = rowMax (fun g => val_main_v12 (F := Ideal) x0 x1 x2 x3 x4 (ix4 b i j g)) := by
    intro g
    rw [val_main_v17_apply, val_main_v16_apply, idx_v16_v17_ix4, v15_ix3]
  have h19 : ∀ g : Fin 192, val_main_v19 (F := Ideal) x0 x1 x2 x3 x4 (ix4 b i j g)
      = Ideal.exp (val_main_v12 (F := Ideal) x0 x1 x2 x3 x4 (ix4 b i j g)
          - rowMax (fun g => val_main_v12 (F := Ideal) x0 x1 x2 x3 x4 (ix4 b i j g))) := by
    intro g
    rw [val_main_v19_apply, val_main_v18_apply, h17, Ideal.hostUnary_exp_def, Ideal.subf_def]
  have h22 : val_main_v22 (F := Ideal) x0 x1 x2 x3 x4 (ix4 b i j f)
      = ∑ g : Fin 192, Ideal.exp (val_main_v12 (F := Ideal) x0 x1 x2 x3 x4 (ix4 b i j g)
          - rowMax (fun g => val_main_v12 (F := Ideal) x0 x1 x2 x3 x4 (ix4 b i j g))) := by
    rw [val_main_v22_apply, val_main_v21_apply, idx_v21_v22_ix4, val_main_v20_apply, val_main_cst_1_apply,
      Ideal.ofBits_def, Ideal.ofBits_zero_f32, zero_add]
    refine Finset.sum_congr rfl fun k _ => ?_
    rw [idx_v20_ix3, h19]
  rw [val_main_v24_apply, val_main_v23_apply, h19, h22, Ideal.hostDivf_def, Ideal.mulf_def]
  rfl

/-- Unflatten, transpose back, merge: image position (b, c, h, w) receives feature `featOf c h w` of patch
    (b, h / 8, w / 8). -/
theorem v27_ix4 (b : Fin 128) (c : Fin 3) (h w : Fin 256) :
    val_main_v27 (F := Ideal) x0 x1 x2 x3 x4 (ix4 b c h w)
      = val_main_v24 (F := Ideal) x0 x1 x2 x3 x4 (ix4 b (blkOf h) (blkOf w) (featOf c h w)) := by
  unfold val_main_v27
  refine (merge_apply (val_main_v26 (F := Ideal) x0 x1 x2 x3 x4) _ b c h w).trans ?_
  refine (val_main_v26_apply x0 x1 x2 x3 x4 _).trans ?_
  rw [idx_v26_ix6]
  unfold val_main_v25
  exact unflatten_apply (val_main_v24 (F := Ideal) x0 x1 x2 x3 x4) _ b _ _ c _ _

end Stages

/-- The reference computes the specification's function. -/
theorem ref_eq (x0 : (⟨S128x3x256x256, .f32⟩ : BufTy).Contents (Elt Ideal)) (x1 : (⟨S16x192, .f32⟩ : BufTy).Contents (Elt Ideal)) (x2 : (⟨S16, .f32⟩ : BufTy).Contents (Elt Ideal)) (x3 : (⟨S192x16, .f32⟩ : BufTy).Contents (Elt Ideal)) (x4 : (⟨S192, .f32⟩ : BufTy).Contents (Elt Ideal)) :
    Cert.ReferenceIdeal.Read.val_main_v27 (F := Ideal) x0 x1 x2 x3 x4 = Cert.PatchSpec.G x0 x1 x2 x3 x4 := by
  funext y
  obtain ⟨b, c, h, w, rfl⟩ : ∃ (b : Fin 128) (c : Fin 3) (h w : Fin 256), y = ix4 b c h w :=
    ⟨y 0, y 1, y 2, y 3, eq_ix4 y⟩
  rw [v27_ix4, v24_ix4, G_ix4]
  unfold Gc row
  refine congrArg (fun o => attend o (featOf c h w)) (funext fun g => ?_)
  exact v12_ix4 x0 x1 x2 x3 x4 b (blkOf h) (blkOf w) g

end Cert.ReferenceIdeal.RefValue

end
-- ==== Proof.Claims.lean ====
/-
  The five claims of the certificate.

  The three frames: the kernel's program read at words and read at the extended reals runs to the end with its
  argument arrays unchanged (the generated frame of each), and so does the reference, whose frame is its run with the
  result forgotten. The idealized kernel is the kernel's own text (no operation was rewritten), so the second claim
  is trivial. The last claim: at the extended reals the kernel's result array ends at `PatchSpec.G` of its five
  argument arrays (ArrayValue.run) and the reference's result at the composed term of its operations (the generated
  run), which is `PatchSpec.G` of its arguments (RefValue.ref_eq); the arguments agree, so the results are equal,
  element by element, with no hypothesis on the inputs.
-/
import proofs.«164859_j85478439125884_2_alg».proof.Defs
import proofs.«164859_j85478439125884_2_alg».proof.Proof.Gen.Kernel.Frame
import proofs.«164859_j85478439125884_2_alg».proof.Proof.Gen.KernelIdeal.Frame
import proofs.«164859_j85478439125884_2_alg».proof.Proof.Gen.ReferenceIdeal.Read
import proofs.«164859_j85478439125884_2_alg».proof.Proof.Gen.Pre_finite_inputs
import proofs.«164859_j85478439125884_2_alg».proof.Proof.PatchSpec
import proofs.«164859_j85478439125884_2_alg».proof.Proof.ArrayValue
import proofs.«164859_j85478439125884_2_alg».proof.Proof.RefValue

noncomputable section

namespace Cert.Proof.Claims

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the extended reals: nothing was rewritten. -/
theorem preserves : Cert.preserves_Kernel_KernelIdeal := trivial

/-- Both programs end with the one function `PatchSpec.G` of the argument arrays, which agree. -/
theorem algebraic : Cert.algebraic_KernelIdeal_ReferenceIdeal := by
  intro m ρ m' ρ' _ hagree
  refine ⟨fun c => Cert.PatchSpec.G (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.ref_eq, (hagree c).1, (hagree c).2.1, (hagree c).2.2.1, (hagree c).2.2.2.1,
    (hagree c).2.2.2.2]

end Cert.Proof.Claims

end
-- ==== Proof.lean ====
/- The proof of `Cert.Claim`: a kernel that, per block of 8 image rows and in chunks of 32 batches, cuts the image
   into 8 × 8 patches, sends every patch through a two-layer perceptron with rectifiers and weights the 192 outputs
   by their own softmax, against the same computation written with whole-array reshapes, transpositions and
   contractions. At the extended reals both are ONE function of the five argument arrays, `PatchSpec.G`
   (Proof/PatchSpec.lean): nothing separates the two sides but the order in which indices are split and merged, so
   the proof is index arithmetic and needs no property of the inputs.
     Proof/PatchSpec.lean     the function, over sums on `Fin 192` / `Fin 16` and a fold of `max`
     Proof/PayloadDefs.lean   the body's arithmetic as four stages
     Proof/Payload.lean       the first two stages at an index (patches as rows, the two layers), and the whole
     Proof/PayloadTail.lean   the last two stages at an index (the softmax weighting, rows back to patches)
     Proof/OutRow.lean        what a grid point leaves in its output block: the loop's four stores, each a
                              restriction of one function of the block index
     Proof/ArrayValue.lean    the 32 blocks cover the result array, which ends at `G`
     Proof/RefValue.lean      the reference's composed term is `G`
     Proof/Claims.lean        the five claims
   assembled here behind the witnesses of the programs' stated facts. -/
import proofs.«164859_j85478439125884_2_alg».proof.Defs
import proofs.«164859_j85478439125884_2_alg».proof.Proof.Claims
import proofs.«164859_j85478439125884_2_alg».proof.Proof.Gen.Kernel
import proofs.«164859_j85478439125884_2_alg».proof.Proof.Gen.KernelIdeal
import proofs.«164859_j85478439125884_2_alg».proof.Proof.Gen.ReferenceIdeal
import proofs.«164859_j85478439125884_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
